-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x512 : Shape := ⟨3, ![128, 512, 512]⟩
abbrev S512x515 : Shape := ⟨2, ![512, 515]⟩
abbrev S515 : Shape := ⟨1, ![515]⟩
abbrev S512 : Shape := ⟨1, ![512]⟩
abbrev S_ : Shape := ⟨0, ![]⟩

class Facts : Prop where
  bcast_S_S128x512x512 : S_.BroadcastsInDim S128x512x512 (![] : Fin 0 → Fin S128x512x512.rank)
  reducesTo_S128x512x512_S_d0_1_2 : S128x512x512.ReducesTo [0, 1, 2] S_
  h_S_ : 0 < S_.numel
  bcast_S_S512x515 : S_.BroadcastsInDim S512x515 (![] : Fin 0 → Fin S512x515.rank)
  reducesTo_S512x515_S_d0_1 : S512x515.ReducesTo [0, 1] S_
  bcast_S_S515 : S_.BroadcastsInDim S515 (![] : Fin 0 → Fin S515.rank)
  reducesTo_S515_S_d0 : S515.ReducesTo [0] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512 .f32) (main_v13 : IVec S_ 1) (main_v16 : IVec S515 1) : IVec S_ 1 :=
  let main_c_5 : IVec S_ 1 := constantI S_ 1 1#1
  let main_v17 : IVec S_ 1 := (fun x v => Host.reduce IntOp.andi x v reducesTo_S515_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S128x512x512 .f32) (main_arg1 : FVec F S128x512x512 .f32) (main_arg2 : FVec F S512x515 .f32) (main_arg3 : FVec F S515 .f32) (main_arg4 : FVec F S512 .f32) (main_arg5 : FVec F S512 .f32) : IVec S_ 1 :=
  let main_v0 : FVec F S128x512x512 .f32 := Host.absf main_arg0
  let main_cst : FVec F S_ .f32 := constant S_ .f32 0x7F800000#32
  let main_v1 : FVec F S128x512x512 .f32 := broadcastInDim S128x512x512 ![] bcast_S_S128x512x512 main_cst
  let main_v2 : IVec S128x512x512 1 := cmpf .olt main_v0 main_v1
  let main_c : IVec S_ 1 := constantI S_ 1 1#1
  let main_v3 : IVec S_ 1 := (fun x v => Host.reduce IntOp.andi x v reducesTo_S128x512x512_S_d0_1_2 h_S_) main_v2 main_c
  let main_v4 : FVec F S128x512x512 .f32 := Host.absf main_arg1
  let main_cst_0 : FVec F S_ .f32 := constant S_ .f32 0x7F800000#32
  let main_v5 : FVec F S128x512x512 .f32 := broadcastInDim S128x512x512 ![] bcast_S_S128x512x512 main_cst_0
  let main_v6 : IVec S128x512x512 1 := cmpf .olt main_v4 main_v5
  let main_c_1 : IVec S_ 1 := constantI S_ 1 1#1
  let main_v7 : IVec S_ 1 := (fun x v => Host.reduce IntOp.andi x v reducesTo_S128x512x512_S_d0_1_2 h_S_) main_v6 main_c_1
  let main_v8 : IVec S_ 1 := andi main_v3 main_v7
  let main_v9 : FVec F S512x515 .f32 := Host.absf main_arg2
  let main_cst_2 : FVec F S_ .f32 := constant S_ .f32 0x7F800000#32
  let main_v10 : FVec F S512x515 .f32 := broadcastInDim S512x515 ![] bcast_S_S512x515 main_cst_2
  let main_v11 : IVec S512x515 1 := cmpf .olt main_v9 main_v10
  let main_c_3 : IVec S_ 1 := constantI S_ 1 1#1
  let main_v12 : IVec S_ 1 := (fun x v => Host.reduce IntOp.andi x v reducesTo_S512x515_S_d0_1 h_S_) main_v11 main_c_3
  let main_v13 : IVec S_ 1 := andi main_v8 main_v12
  let main_v14 : FVec F S515 .f32 := Host.absf main_arg3
  let main_cst_4 : FVec F S_ .f32 := constant S_ .f32 0x7F800000#32
  let main_v15 : FVec F S515 .f32 := broadcastInDim S515 ![] bcast_S_S515 main_cst_4
  let main_v16 : IVec S515 1 := cmpf .olt main_v14 main_v15
  fn_part1 (F := F) main_arg4 main_arg5 main_v13 main_v16
-- ==== Kernel.lean ====
abbrev S128x512x512 : Shape := ⟨3, ![128, 512, 512]⟩
abbrev S512x515 : Shape := ⟨2, ![512, 515]⟩
abbrev S515 : Shape := ⟨1, ![515]⟩
abbrev S512 : Shape := ⟨1, ![512]⟩
abbrev S512x3 : Shape := ⟨2, ![512, 3]⟩
abbrev S512x512 : Shape := ⟨2, ![512, 512]⟩
abbrev S3 : Shape := ⟨1, ![3]⟩
abbrev S1x3 : Shape := ⟨2, ![1, 3]⟩
abbrev S1x512 : Shape := ⟨2, ![1, 512]⟩
abbrev S1x512x512 : Shape := ⟨3, ![1, 512, 512]⟩
abbrev S512x1 : Shape := ⟨2, ![512, 1]⟩
abbrev S512x513 : Shape := ⟨2, ![512, 513]⟩
abbrev S512x514 : Shape := ⟨2, ![512, 514]⟩

abbrev nBuf : Space → Nat
  | .hbm => 15
  | .vmem => 12
  | .smem => 0
  | _ => 0

abbrev bufTy : (tb : Table) → Fin (tcTables nBuf tb) → BufTy
  | .hbm, ⟨0, _⟩ => ⟨S128x512x512, .f32⟩
  | .hbm, ⟨1, _⟩ => ⟨S128x512x512, .f32⟩
  | .hbm, ⟨2, _⟩ => ⟨S512x515, .f32⟩
  | .hbm, ⟨3, _⟩ => ⟨S515, .f32⟩
  | .hbm, ⟨4, _⟩ => ⟨S512, .f32⟩
  | .hbm, ⟨5, _⟩ => ⟨S512, .f32⟩
  | .hbm, ⟨6, _⟩ => ⟨S512x3, .f32⟩
  | .hbm, ⟨7, _⟩ => ⟨S512x512, .f32⟩
  | .hbm, ⟨8, _⟩ => ⟨S3, .f32⟩
  | .hbm, ⟨9, _⟩ => ⟨S1x3, .f32⟩
  | .hbm, ⟨10, _⟩ => ⟨S512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S128x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S512x3, .f32⟩
  | .local _ .vmem, ⟨5, _⟩ => ⟨S512x512, .f32⟩
  | .local _ .vmem, ⟨6, _⟩ => ⟨S1x3, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512x512, .f32⟩
  | .local _ .vmem, ⟨11, _⟩ => ⟨S1x512x512, .f32⟩
  | _, _ => ⟨S128x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S512x515_S512x3_0_0 : S512x515.Slices ![0, 0] S512x3
  slices_S512x515_S512x512_0_3 : S512x515.Slices ![0, 3] S512x512
  slices_S515_S3_0 : S515.Slices ![0] S3
  shapeCasts_S3_S1x3 : S3.ShapeCasts S1x3
  slices_S515_S512_3 : S515.Slices ![3] S512
  shapeCasts_S512_S1x512 : S512.ShapeCasts S1x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S512x3_S512x3_0_0 : ∀ a, (![0, 0] : Fin 2 → Nat) a + S512x3.size a ≤ S512x3.size a
  h_S512x3 : 0 < S512x3.numel
  shapeCasts_S512x3_S512x3 : S512x3.ShapeCasts S512x3
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S512x3 : S1x3.Broadcasts S512x3
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  concatenates_S512x1_S512x512_S512x513_d1 : Shape.Concatenates [S512x1, S512x512] S512x513 1
  concatenates_S512x513_S512x1_S512x514_d1 : Shape.Concatenates [S512x513, S512x1] S512x514 1
  slices_S512x3_o0_0_S512x1 : S512x3.Slices ![0, 0] S512x1
  slices_S512x514_o0_0_S512x512 : S512x514.Slices ![0, 0] S512x512
  broadcasts_S512x1_S512x512 : S512x1.Broadcasts S512x512
  slices_S512x3_o0_1_S512x1 : S512x3.Slices ![0, 1] S512x1
  slices_S512x514_o0_1_S512x512 : S512x514.Slices ![0, 1] S512x512
  slices_S512x3_o0_2_S512x1 : S512x3.Slices ![0, 2] S512x1
  slices_S512x514_o0_2_S512x512 : S512x514.Slices ![0, 2] S512x512
  reduces_S512x512_S512 : S512x512.Reduces [1] S512
  shapeCasts_S512_S512x1 : S512.ShapeCasts S512x1
  shapeCasts_S512x512_S1x512x512 : S512x512.ShapeCasts S1x512x512
  dot_S512x512_S512x3_S512x3_1_0_0_1_n_n_wf : DotDims.WF S512x512 S512x3 S512x3 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S128x512x512.size a
  hwx0_0 : ∀ i : grid0.Coords, EltTy.bits .f32 = 32 ∨ (Rect.block (s := S128x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S128x512x512.size a
  hwx0_1 : ∀ i : grid0.Coords, EltTy.bits .f32 = 32 ∨ (Rect.block (s := S128x512x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x3.size a ≤ S512x3.size a
  hwx0_2 : ∀ i : grid0.Coords, EltTy.bits .f32 = 32 ∨ (Rect.block (s := S512x3) S512x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3.size a ≤ S1x3.size a
  hwx0_4 : ∀ i : grid0.Coords, EltTy.bits .f32 = 32 ∨ (Rect.block (s := S1x3) S1x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x512.size a ≤ S128x512x512.size a
  hwx0_8 : ∀ i : grid0.Coords, EltTy.bits .f32 = 32 ∨ (Rect.block (s := S128x512x512) S1x512x512.size (cc0_transform_8 i) (hinb0_8 i)).WholeWords (EltTy.packing .f32)

variable [Facts₀]

def dot_S512x512_S512x3_S512x3_1_0_0_1_n_n : DotDims S512x512 S512x3 S512x3 where
  lhsContracting := [1]
  rhsContracting := [0]
  lhsNonContracting := [0]
  rhsNonContracting := [1]
  lhsBatch := []
  rhsBatch := []
  wf := dot_S512x512_S512x3_S512x3_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x512x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S128x512x512 : Shape := ⟨3, ![128, 512, 512]⟩
abbrev S512x515 : Shape := ⟨2, ![512, 515]⟩
abbrev S515 : Shape := ⟨1, ![515]⟩
abbrev S512 : Shape := ⟨1, ![512]⟩
abbrev S128x512x515 : Shape := ⟨3, ![128, 512, 515]⟩
abbrev S1x1x515 : Shape := ⟨3, ![1, 1, 515]⟩
abbrev S128x512x3 : Shape := ⟨3, ![128, 512, 3]⟩
abbrev S_ : Shape := ⟨0, ![]⟩
abbrev S128x512x514 : Shape := ⟨3, ![128, 512, 514]⟩
abbrev S128x512x1 : Shape := ⟨3, ![128, 512, 1]⟩
abbrev S128x512 : Shape := ⟨2, ![128, 512]⟩
abbrev S1x1x512 : Shape := ⟨3, ![1, 1, 512]⟩

abbrev nBuf : Space → Nat
  | .hbm => 62
  | .vmem => 0
  | .smem => 0
  | _ => 0

abbrev bufTy : (tb : Table) → Fin (tcTables nBuf tb) → BufTy
  | .hbm, ⟨0, _⟩ => ⟨S128x512x512, .f32⟩
  | .hbm, ⟨1, _⟩ => ⟨S128x512x512, .f32⟩
  | .hbm, ⟨2, _⟩ => ⟨S512x515, .f32⟩
  | .hbm, ⟨3, _⟩ => ⟨S515, .f32⟩
  | .hbm, ⟨4, _⟩ => ⟨S512, .f32⟩
  | .hbm, ⟨5, _⟩ => ⟨S512, .f32⟩
  | .hbm, ⟨6, _⟩ => ⟨S128x512x515, .f32⟩
  | .hbm, ⟨7, _⟩ => ⟨S1x1x515, .f32⟩
  | .hbm, ⟨8, _⟩ => ⟨S128x512x515, .f32⟩
  | .hbm, ⟨9, _⟩ => ⟨S128x512x515, .f32⟩
  | .hbm, ⟨10, _⟩ => ⟨S128x512x3, .f32⟩
  | .hbm, ⟨11, _⟩ => ⟨S128x512x512, .f32⟩
  | .hbm, ⟨12, _⟩ => ⟨S_, .i32⟩
  | .hbm, ⟨13, _⟩ => ⟨S_, .f32⟩
  | .hbm, ⟨14, _⟩ => ⟨S128x512x514, .f32⟩
  | .hbm, ⟨15, _⟩ => ⟨S128x512x1, .f32⟩
  | .hbm, ⟨16, _⟩ => ⟨S128x512x512, .f32⟩
  | .hbm, ⟨17, _⟩ => ⟨S128x512x512, .f32⟩
  | .hbm, ⟨18, _⟩ => ⟨S128x512x512, .f32⟩
  | .hbm, ⟨19, _⟩ => ⟨S128x512x1, .f32⟩
  | .hbm, ⟨20, _⟩ => ⟨S128x512x512, .f32⟩
  | .hbm, ⟨21, _⟩ => ⟨S128x512x512, .f32⟩
  | .hbm, ⟨22, _⟩ => ⟨S128x512x512, .f32⟩
  | .hbm, ⟨23, _⟩ => ⟨S128x512x512, .f32⟩
  | .hbm, ⟨24, _⟩ => ⟨S128x512x1, .f32⟩
  | .hbm, ⟨25, _⟩ => ⟨S128x512x512, .f32⟩
  | .hbm, ⟨26, _⟩ => ⟨S128x512x512, .f32⟩
  | .hbm, ⟨27, _⟩ => ⟨S128x512x512, .f32⟩
  | .hbm, ⟨28, _⟩ => ⟨S128x512x512, .f32⟩
  | .hbm, ⟨29, _⟩ => ⟨S_, .f32⟩
  | .hbm, ⟨30, _⟩ => ⟨S128x512x512, .f32⟩
  | .hbm, ⟨31, _⟩ => ⟨S128x512x512, .f32⟩
  | .hbm, ⟨32, _⟩ => ⟨S128x512x512, .f32⟩
  | .hbm, ⟨33, _⟩ => ⟨S_, .f32⟩
  | .hbm, ⟨34, _⟩ => ⟨S128x512, .f32⟩
  | .hbm, ⟨35, _⟩ => ⟨S128x512x1, .f32⟩
  | .hbm, ⟨36, _⟩ => ⟨S_, .f32⟩
  | .hbm, ⟨37, _⟩ => ⟨S128x512x1, .f32⟩
  | .hbm, ⟨38, _⟩ => ⟨S128x512x1, .f32⟩
  | .hbm, ⟨39, _⟩ => ⟨S128x512x512, .f32⟩
  | .hbm, ⟨40, _⟩ => ⟨S128x512x512, .f32⟩
  | .hbm, ⟨41, _⟩ => ⟨S128x512x512, .f32⟩
  | .hbm, ⟨42, _⟩ => ⟨S_, .f32⟩
  | .hbm, ⟨43, _⟩ => ⟨S128x512, .f32⟩
  | .hbm, ⟨44, _⟩ => ⟨S128x512x1, .f32⟩
  | .hbm, ⟨45, _⟩ => ⟨S_, .f32⟩
  | .hbm, ⟨46, _⟩ => ⟨S128x512x1, .f32⟩
  | .hbm, ⟨47, _⟩ => ⟨S128x512x1, .f32⟩
  | .hbm, ⟨48, _⟩ => ⟨S128x512x512, .f32⟩
  | .hbm, ⟨49, _⟩ => ⟨S128x512x512, .f32⟩
  | .hbm, ⟨50, _⟩ => ⟨S_, .f32⟩
  | .hbm, ⟨51, _⟩ => ⟨S128x512x1, .f32⟩
  | .hbm, ⟨52, _⟩ => ⟨S128x512x1, .f32⟩
  | .hbm, ⟨53, _⟩ => ⟨S128x512x1, .f32⟩
  | .hbm, ⟨54, _⟩ => ⟨S128x512x512, .f32⟩
  | .hbm, ⟨55, _⟩ => ⟨S128x512x512, .f32⟩
  | .hbm, ⟨56, _⟩ => ⟨S1x1x512, .f32⟩
  | .hbm, ⟨57, _⟩ => ⟨S128x512x512, .f32⟩
  | .hbm, ⟨58, _⟩ => ⟨S128x512x512, .f32⟩
  | .hbm, ⟨59, _⟩ => ⟨S1x1x512, .f32⟩
  | .hbm, ⟨60, _⟩ => ⟨S128x512x512, .f32⟩
  | .hbm, ⟨61, _⟩ => ⟨S128x512x512, .f32⟩
  | _, _ => ⟨S128x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call1_cst : Ref sig .tc := ⟨.hbm, 29, rfl⟩
abbrev main_call1_v0 : Ref sig .tc := ⟨.hbm, 30, rfl⟩
abbrev main_v21 : Ref sig .tc := ⟨.hbm, 31, rfl⟩
abbrev main_v22 : Ref sig .tc := ⟨.hbm, 32, rfl⟩
abbrev main_cst : Ref sig .tc := ⟨.hbm, 33, rfl⟩
abbrev main_v23 : Ref sig .tc := ⟨.hbm, 34, rfl⟩
abbrev main_v24 : Ref sig .tc := ⟨.hbm, 35, rfl⟩
abbrev main_cst_0 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_1 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]

class Facts₀ : Prop where
  bcast_S515_S1x1x515_2 : S515.BroadcastsInDim S1x1x515 (![2] : Fin 1 → Fin S1x1x515.rank)
  bcast_S1x1x515_S128x512x515_0_1_2 : S1x1x515.BroadcastsInDim S128x512x515 (![0, 1, 2] : Fin 3 → Fin S128x512x515.rank)
  slices_S128x512x515_S128x512x3_0_0_0 : S128x512x515.Slices ![0, 0, 0] S128x512x3
  slices_S128x512x515_S128x512x512_0_0_3 : S128x512x515.Slices ![0, 0, 3] S128x512x512
  pads_S128x512x512_S128x512x514_000_000_110 : S128x512x512.Pads (![0, 0, 1] : Fin 3 → Nat) ![0, 0, 1] ![0, 0, 0] S128x512x514
  h_S_ : 0 < S_.numel
  slices_S128x512x3_S128x512x1_0_0_0 : S128x512x3.Slices ![0, 0, 0] S128x512x1
  slices_S128x512x514_S128x512x512_0_0_0 : S128x512x514.Slices ![0, 0, 0] S128x512x512
  bcast_S128x512x1_S128x512x512_0_1_2 : S128x512x1.BroadcastsInDim S128x512x512 (![0, 1, 2] : Fin 3 → Fin S128x512x512.rank)
  slices_S128x512x3_S128x512x1_0_0_1 : S128x512x3.Slices ![0, 0, 1] S128x512x1
  slices_S128x512x514_S128x512x512_0_0_1 : S128x512x514.Slices ![0, 0, 1] S128x512x512
  slices_S128x512x3_S128x512x1_0_0_2 : S128x512x3.Slices ![0, 0, 2] S128x512x1
  slices_S128x512x514_S128x512x512_0_0_2 : S128x512x514.Slices ![0, 0, 2] S128x512x512
  bcast_S_S128x512x512 : S_.BroadcastsInDim S128x512x512 (![] : Fin 0 → Fin S128x512x512.rank)
  reducesTo_S128x512x512_S128x512_d2 : S128x512x512.ReducesTo [2] S128x512
  bcast_S128x512_S128x512x1_0_1 : S128x512.BroadcastsInDim S128x512x1 (![0, 1] : Fin 2 → Fin S128x512x1.rank)
  bcast_S_S128x512x1 : S_.BroadcastsInDim S128x512x1 (![] : Fin 0 → Fin S128x512x1.rank)
  bcast_S512_S1x1x512_2 : S512.BroadcastsInDim S1x1x512 (![2] : Fin 1 → Fin S1x1x512.rank)
  bcast_S1x1x512_S128x512x512_0_1_2 : S1x1x512.BroadcastsInDim S128x512x512 (![0, 1, 2] : Fin 3 → Fin S128x512x512.rank)
  dot_S128x512x512_S512x515_S128x512x515_2_0_01_1_n_n_wf : DotDims.WF S128x512x512 S512x515 S128x512x515 [2] [0] [0, 1] [1] [] []
  dot_S128x512x512_S128x512x512_S128x512x512_2_1_1_2_0_0_wf : DotDims.WF S128x512x512 S128x512x512 S128x512x512 [2] [1] [1] [2] [0] [0]

variable [Facts₀]

def dot_S128x512x512_S512x515_S128x512x515_2_0_01_1_n_n : DotDims S128x512x512 S512x515 S128x512x515 where
  lhsContracting := [2]
  rhsContracting := [0]
  lhsNonContracting := [0, 1]
  rhsNonContracting := [1]
  lhsBatch := []
  rhsBatch := []
  wf := dot_S128x512x512_S512x515_S128x512x515_2_0_01_1_n_n_wf
def dot_S128x512x512_S128x512x512_S128x512x512_2_1_1_2_0_0 : DotDims S128x512x512 S128x512x512 S128x512x512 where
  lhsContracting := [2]
  rhsContracting := [1]
  lhsNonContracting := [1]
  rhsNonContracting := [2]
  lhsBatch := [0]
  rhsBatch := [0]
  wf := dot_S128x512x512_S128x512x512_S128x512x512_2_1_1_2_0_0_wf

class Facts : Prop extends Facts₀ where

variable [Facts]
-- ==== Proof.MatmulAt.lean ====
/-
  The kernel body's two matrix products, read at one entry.

  Both are plain products "rows of the left operand against columns of the right" accumulated into a zero matrix, so
  over the extended reals entry (n, k) is the sum over the 512 contracted positions j of left (n, j) · right (j, k):
  the zero accumulator adds nothing, and the one contracted axis is re-indexed by its coordinate.
-/
import proofs.«151612_j13408887899069_1_alg».proof.Proof.Gen.KernelIdeal.Skeleton
import Idealize.ShloMosaic.Lib.ValueIdx
import Idealize.ShloMosaic.PureOps.Ideal.Laws

noncomputable section

namespace Cert.KernelIdeal.Hand

open Cert.KernelIdeal Idealize.ShloMosaic Idealize.ShloMosaic.ValueIdx

theorem matmul_narrow_lhs0 (i : S512x3.Idx) (q : dot_S512x512_S512x3_S512x3_1_0_0_1_n_n.contr.Idx) : (dot_S512x512_S512x3_S512x3_1_0_0_1_n_n.lhsIdx i q 0).val = (i 0).val := by
  unfold DotDims.lhsIdx
  rw [dif_neg (show ¬(0 : Fin S512x512.rank) ∈ dot_S512x512_S512x3_S512x3_1_0_0_1_n_n.lhsBatch by decide), dif_pos (show (0 : Fin S512x512.rank) ∈ dot_S512x512_S512x3_S512x3_1_0_0_1_n_n.lhsNonContracting by decide)]
  rfl
theorem matmul_narrow_lhs1 (i : S512x3.Idx) (q : dot_S512x512_S512x3_S512x3_1_0_0_1_n_n.contr.Idx) : (dot_S512x512_S512x3_S512x3_1_0_0_1_n_n.lhsIdx i q 1).val = (q ⟨0, by decide⟩).val :=
  dot_S512x512_S512x3_S512x3_1_0_0_1_n_n.lhsIdx_val_of_single rfl i q
theorem matmul_narrow_rhs0 (i : S512x3.Idx) (q : dot_S512x512_S512x3_S512x3_1_0_0_1_n_n.contr.Idx) : (dot_S512x512_S512x3_S512x3_1_0_0_1_n_n.rhsIdx i q 0).val = (q ⟨0, by decide⟩).val :=
  dot_S512x512_S512x3_S512x3_1_0_0_1_n_n.rhsIdx_val_of_single rfl i q
theorem matmul_narrow_rhs1 (i : S512x3.Idx) (q : dot_S512x512_S512x3_S512x3_1_0_0_1_n_n.contr.Idx) : (dot_S512x512_S512x3_S512x3_1_0_0_1_n_n.rhsIdx i q 1).val = (i 1).val := by
  unfold DotDims.rhsIdx
  rw [dif_neg (show ¬(1 : Fin S512x3.rank) ∈ dot_S512x512_S512x3_S512x3_1_0_0_1_n_n.rhsBatch by decide), dif_pos (show (1 : Fin S512x3.rank) ∈ dot_S512x512_S512x3_S512x3_1_0_0_1_n_n.rhsNonContracting by decide)]
  rfl

/-- The [512,512] × [512,3] product into a zero accumulator: entry (n, k) is the sum over j of l (n, j) · r (j, k). -/
theorem matmul_narrow_apply {φ₁ φ₂ : FTy} (l : FVec Ideal S512x512 φ₁) (r : FVec Ideal S512x3 φ₂) (n : Fin 512) (k : Fin 3) :
    matmul dot_S512x512_S512x3_S512x3_1_0_0_1_n_n none l r (constant S512x3 .f32 0x00000000#32) (ix2 n k)
      = ∑ j : Fin 512, l (ix2 n j) * r (ix2 j k) := by
  simp only [matmul]
  rw [Ideal.matmul_constant_zero_apply, ← Equiv.sum_comp (contrEquiv1 dot_S512x512_S512x3_S512x3_1_0_0_1_n_n 512 rfl rfl).symm]
  refine Finset.sum_congr rfl fun j _ => ?_
  have hj := contrEquiv1_symm_val dot_S512x512_S512x3_S512x3_1_0_0_1_n_n 512 rfl rfl j
  have el : dot_S512x512_S512x3_S512x3_1_0_0_1_n_n.lhsIdx (ix2 n k) ((contrEquiv1 dot_S512x512_S512x3_S512x3_1_0_0_1_n_n 512 rfl rfl).symm j) = ix2 n j :=
    funext fun a => Fin.ext (by
      match a with
      | ⟨0, _⟩ => exact matmul_narrow_lhs0 _ _
      | ⟨1, _⟩ => exact (matmul_narrow_lhs1 _ _).trans hj)
  have er : dot_S512x512_S512x3_S512x3_1_0_0_1_n_n.rhsIdx (ix2 n k) ((contrEquiv1 dot_S512x512_S512x3_S512x3_1_0_0_1_n_n 512 rfl rfl).symm j) = ix2 j k :=
    funext fun a => Fin.ext (by
      match a with
      | ⟨0, _⟩ => exact (matmul_narrow_rhs0 _ _).trans hj
      | ⟨1, _⟩ => exact matmul_narrow_rhs1 _ _)
  rw [el, er]

theorem matmul_square_lhs0 (i : S512x512.Idx) (q : dot_S512x512_S512x512_S512x512_1_0_0_1_n_n.contr.Idx) : (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem matmul_square_lhs1 (i : S512x512.Idx) (q : dot_S512x512_S512x512_S512x512_1_0_0_1_n_n.contr.Idx) : (dot_S512x512_S512x512_S512x512_1_0_0_1_n_n.lhsIdx i q 1).val = (q ⟨0, by decide⟩).val :=
  dot_S512x512_S512x512_S512x512_1_0_0_1_n_n.lhsIdx_val_of_single rfl i q
theorem matmul_square_rhs0 (i : S512x512.Idx) (q : dot_S512x512_S512x512_S512x512_1_0_0_1_n_n.contr.Idx) : (dot_S512x512_S512x512_S512x512_1_0_0_1_n_n.rhsIdx i q 0).val = (q ⟨0, by decide⟩).val :=
  dot_S512x512_S512x512_S512x512_1_0_0_1_n_n.rhsIdx_val_of_single rfl i q
theorem matmul_square_rhs1 (i : S512x512.Idx) (q : dot_S512x512_S512x512_S512x512_1_0_0_1_n_n.contr.Idx) : (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The [512,512] × [512,512] product into a zero accumulator: entry (n, k) is the sum over j of l (n, j) · r (j, k). -/
theorem matmul_square_apply {φ₁ φ₂ : FTy} (l : FVec Ideal S512x512 φ₁) (r : FVec Ideal S512x512 φ₂) (n : Fin 512) (k : Fin 512) :
    matmul dot_S512x512_S512x512_S512x512_1_0_0_1_n_n none l r (constant S512x512 .f32 0x00000000#32) (ix2 n k)
      = ∑ j : Fin 512, l (ix2 n j) * r (ix2 j k) := by
  simp only [matmul]
  rw [Ideal.matmul_constant_zero_apply, ← Equiv.sum_comp (contrEquiv1 dot_S512x512_S512x512_S512x512_1_0_0_1_n_n 512 rfl rfl).symm]
  refine Finset.sum_congr rfl fun j _ => ?_
  have hj := contrEquiv1_symm_val dot_S512x512_S512x512_S512x512_1_0_0_1_n_n 512 rfl rfl j
  have el : dot_S512x512_S512x512_S512x512_1_0_0_1_n_n.lhsIdx (ix2 n k) ((contrEquiv1 dot_S512x512_S512x512_S512x512_1_0_0_1_n_n 512 rfl rfl).symm j) = ix2 n j :=
    funext fun a => Fin.ext (by
      match a with
      | ⟨0, _⟩ => exact matmul_square_lhs0 _ _
      | ⟨1, _⟩ => exact (matmul_square_lhs1 _ _).trans hj)
  have er : dot_S512x512_S512x512_S512x512_1_0_0_1_n_n.rhsIdx (ix2 n k) ((contrEquiv1 dot_S512x512_S512x512_S512x512_1_0_0_1_n_n 512 rfl rfl).symm j) = ix2 j k :=
    funext fun a => Fin.ext (by
      match a with
      | ⟨0, _⟩ => exact (matmul_square_rhs0 _ _).trans hj
      | ⟨1, _⟩ => exact matmul_square_rhs1 _ _)
  rw [el, er]

end Cert.KernelIdeal.Hand

end
-- ==== Proof.Spec.lean ====
/-
  What both programs compute for one batch entry, written once over plain coordinates.

  For one batch entry let q and v be its [512, 512] query and value matrices. The linear layer's weight splits by
  columns into wd (3 columns) and wp (512 columns), its bias into bd and bp. Then
    dw (n, k) = Σ_j q (n, j) · wd (j, k) + bd k            the three taps of row n's filter,
    pw (n, i) = Σ_j q (n, j) · wp (j, i) + bp i            the mixing weights,
    conv (n, c) = dw (n, 0) · v̄ (n, c) + dw (n, 1) · v̄ (n, c + 1) + dw (n, 2) · v̄ (n, c + 2),
  where v̄ is row n of v with one zero put in front and one behind (position p of v̄ is v (n, p − 1) for 1 ≤ p ≤ 512),
    depth = max (conv, 0),   out (m, c) = Σ_n pw (m, n) · depth (n, c),
  and each row of out is normalised: mean μ and variance σ² over the 512 columns (sums divided by the constant 512),
    result (m, c) = (out (m, c) − μ m) · rsqrt (σ² m + ε) · γ c + β c.
  The constants 512 and ε stay the bit patterns both programs print; neither side ever evaluates them.
-/
import Idealize.ShloMosaic.PureOps.Ideal

noncomputable section

open scoped BigOperators

namespace Cert.Spec

open Idealize.ShloMosaic

/-- The number of columns, 512, as the programs print it. -/
abbrev cols : EReal := Ideal.ofBits .f32 0x44000000#32
/-- The variance's ε as the programs print it. -/
abbrev eps : EReal := Ideal.ofBits .f32 0x3727C5AC#32

section
variable (q v : Fin 512 → Fin 512 → EReal) (wd : Fin 512 → Fin 3 → EReal) (wp : Fin 512 → Fin 512 → EReal)
  (bd : Fin 3 → EReal) (bp gam bet : Fin 512 → EReal)

/-- Tap k of row n's three-tap filter. -/
def dwAt (n : Fin 512) (k : Fin 3) : EReal := (∑ j : Fin 512, q n j * wd j k) + bd k

/-- The weight with which row i enters row n of the result. -/
def pwAt (n i : Fin 512) : EReal := (∑ j : Fin 512, q n j * wp j i) + bp i

/-- Position p (of 514) of row n of v with a zero in front and a zero behind. -/
def tap (n : Fin 512) (p : ℕ) : EReal := if h : 1 ≤ p ∧ p ≤ 512 then v n ⟨p - 1, by omega⟩ else 0

/-- Row n filtered along the columns by its own three taps. -/
def convAt (n c : Fin 512) : EReal :=
  dwAt q wd bd n 0 * tap v n c.val + dwAt q wd bd n 1 * tap v n (c.val + 1) + dwAt q wd bd n 2 * tap v n (c.val + 2)

/-- … and clipped below at zero. -/
def depthAt (n c : Fin 512) : EReal := max (convAt q v wd bd n c) 0

/-- The rows mixed by the weights pw. -/
def outAt (m c : Fin 512) : EReal := ∑ n : Fin 512, pwAt q wp bp m n * depthAt q v wd bd n c

/-- A row's mean. -/
def muAt (m : Fin 512) : EReal := Ideal.div (∑ c : Fin 512, outAt q v wd wp bd bp m c) cols

/-- A row's variance. -/
def varAt (m : Fin 512) : EReal :=
  Ideal.div (∑ c : Fin 512, (outAt q v wd wp bd bp m c - muAt q v wd wp bd bp m) * (outAt q v wd wp bd bp m c - muAt q v wd wp bd bp m)) cols

/-- The normalised row, scaled and shifted. -/
def lnAt (m c : Fin 512) : EReal :=
  (outAt q v wd wp bd bp m c - muAt q v wd wp bd bp m) * Ideal.rsqrt (varAt q v wd wp bd bp m + eps) * gam c + bet c

end

end Cert.Spec

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.LibColumnOps.lean ====
/-
  Matrices with one column, read at an index given by coordinates.

  Three facts about an `[n, c]` matrix `X` and an `[r, 1]` column `W`, each an instance of the library's
  slice and broadcast lemmas with the coordinates' arithmetic done:
  * column `o` of `X`, cut out as an `[n, 1]` matrix, holds at row `p` the entry `X (p, o)`;
  * entry `(o, 0)` of `W`, cut out as a `[1, 1]` matrix and spread over `n` rows, holds `W (o, 0)` at every row;
  * a `[1, 1]` matrix spread over `n` rows holds its one entry at every row.
  Together they read a product "column of `X` times one weight" at a row, which is what a small contraction
  written out term by term is made of.
-/
import Idealize.ShloMosaic.Lib.ValueLayout

namespace Cert.ColumnOps

open Idealize.ShloMosaic Idealize.ShloMosaic.ValueIdx

variable {α : Type}

/-- Column `o` of an `[n, c]` matrix, cut out as an `[n, 1]` matrix, holds at row `p` the matrix's entry `(p, o)`. -/
theorem column_apply {n c : Nat} (o : Nat) (ho : o < c) (X : (⟨2, ![n, c]⟩ : Shape).Idx → α)
    (h : (⟨2, ![n, c]⟩ : Shape).Slices ![0, o] ⟨2, ![n, 1]⟩) (p : Fin n) :
    extractStridedSlice ⟨2, ![n, 1]⟩ ![0, o] X h (ix2 p (0 : Fin 1)) = X (ix2 p (⟨o, ho⟩ : Fin c)) :=
  slice2_axis1_apply o X h p 0 ⟨o, ho⟩ rfl

/-- Entry `(o, 0)` of an `[r, 1]` column, cut out as a `[1, 1]` matrix and spread over `n` rows, holds that
    entry at every row. -/
theorem entry_spread_apply {r n : Nat} (o : Nat) (ho : o < r) (W : (⟨2, ![r, 1]⟩ : Shape).Idx → α)
    (h : (⟨2, ![r, 1]⟩ : Shape).Slices ![o, 0] ⟨2, ![1, 1]⟩)
    (hb : (⟨2, ![1, 1]⟩ : Shape).Broadcasts ⟨2, ![n, 1]⟩) (p : Fin n) :
    broadcastTo ⟨2, ![n, 1]⟩ (extractStridedSlice ⟨2, ![1, 1]⟩ ![o, 0] W h) hb (ix2 p (0 : Fin 1))
      = W (ix2 (⟨o, ho⟩ : Fin r) (0 : Fin 1)) :=
  (broadcastTo_1b_ab_apply _ hb p 0).trans (slice2_axis0_apply o W h 0 0 ⟨o, ho⟩ rfl)

/-- A `[1, 1]` matrix spread over `n` rows holds its one entry at every row. -/
theorem one_spread_apply {n : Nat} (B : (⟨2, ![1, 1]⟩ : Shape).Idx → α)
    (hb : (⟨2, ![1, 1]⟩ : Shape).Broadcasts ⟨2, ![n, 1]⟩) (p : Fin n) :
    broadcastTo ⟨2, ![n, 1]⟩ B hb (ix2 p (0 : Fin 1)) = B (ix2 (0 : Fin 1) (0 : Fin 1)) :=
  broadcastTo_1b_ab_apply B hb p 0

end Cert.ColumnOps
-- ==== Proof.LibJoinedColumn.lean ====
/-
  A matrix with one more column joined on its right, read at an index given by coordinates.

  Joining an `[n, a]` matrix `X` and an `[n, 1]` column `Y` along the columns gives an `[n, b]` matrix (with
  `b = a + 1`, which the joining's own side condition carries). Its entry `(p, k)` is `X (p, k)` for `k < a` and
  `Y (p, 0)` for `k = a`: the library's two-piece lemmas with the coordinates' arithmetic done.
-/
import Idealize.ShloMosaic.Lib.Pipeline.Value
import Idealize.ShloMosaic.Lib.ValueIdx

namespace Cert.JoinedColumn

open Idealize.ShloMosaic Idealize.ShloMosaic.ValueIdx

variable {α : Type}

/-- Left of the joint the joined matrix is the matrix. -/
theorem joined_left {n a b : Nat} (X : (⟨2, ![n, a]⟩ : Shape).Idx → α) (Y : (⟨2, ![n, 1]⟩ : Shape).Idx → α)
    (h : Shape.Concatenates [(⟨2, ![n, a]⟩ : Shape), (⟨2, ![n, 1]⟩ : Shape)] (⟨2, ![n, b]⟩ : Shape) (1 : Fin 2))
    (p : Fin n) (k : Nat) (hk : k < a) (hkb : k < b) :
    concatenate (⟨2, ![n, b]⟩ : Shape) (1 : Fin 2) [⟨(⟨2, ![n, a]⟩ : Shape), X⟩, ⟨(⟨2, ![n, 1]⟩ : Shape), Y⟩] h
        (ix2 p (⟨k, hkb⟩ : Fin b))
      = X (ix2 p (⟨k, hk⟩ : Fin a)) :=
  concatenate_pair_apply_left (t := (⟨2, ![n, b]⟩ : Shape)) (s₁ := (⟨2, ![n, a]⟩ : Shape)) (s₂ := (⟨2, ![n, 1]⟩ : Shape))
    (1 : Fin 2) X Y h (ix2 p (⟨k, hkb⟩ : Fin b)) rfl (ix2 p (⟨k, hk⟩ : Fin a))
    (fun d => match d with | ⟨0, _⟩ => rfl | ⟨1, _⟩ => rfl)

/-- At the joint the joined matrix is the column. -/
theorem joined_right {n a b : Nat} (X : (⟨2, ![n, a]⟩ : Shape).Idx → α) (Y : (⟨2, ![n, 1]⟩ : Shape).Idx → α)
    (h : Shape.Concatenates [(⟨2, ![n, a]⟩ : Shape), (⟨2, ![n, 1]⟩ : Shape)] (⟨2, ![n, b]⟩ : Shape) (1 : Fin 2))
    (p : Fin n) (hab : a < b) :
    concatenate (⟨2, ![n, b]⟩ : Shape) (1 : Fin 2) [⟨(⟨2, ![n, a]⟩ : Shape), X⟩, ⟨(⟨2, ![n, 1]⟩ : Shape), Y⟩] h
        (ix2 p (⟨a, hab⟩ : Fin b))
      = Y (ix2 p (0 : Fin 1)) :=
  concatenate_pair_apply_right (t := (⟨2, ![n, b]⟩ : Shape)) (s₁ := (⟨2, ![n, a]⟩ : Shape)) (s₂ := (⟨2, ![n, 1]⟩ : Shape))
    (1 : Fin 2) X Y h (ix2 p (⟨a, hab⟩ : Fin b)) rfl rfl (ix2 p (0 : Fin 1))
    (fun d hd => match d, hd with
      | ⟨0, _⟩, _ => rfl
      | ⟨1, _⟩, hd => absurd rfl hd)
    (by show 0 + a = a; omega)

end Cert.JoinedColumn
-- ==== Proof.LibColumnJoinedLeft.lean ====
/-
  A matrix with one more column joined on its LEFT, read at an index given by coordinates.

  Joining an `[n, 1]` column `Y` and an `[n, a]` matrix `X` along the columns gives an `[n, b]` matrix (with
  `b = 1 + a`, which the joining's own side condition carries). Its entry `(p, 0)` is `Y (p, 0)` and its entry
  `(p, k + 1)` is `X (p, k)`: the library's two-piece lemmas with the coordinates' arithmetic done. (The mirror image
  of joining the column on the right.)
-/
import Idealize.ShloMosaic.Lib.Pipeline.Value
import Idealize.ShloMosaic.Lib.ValueIdx

namespace Cert.ColumnJoinedLeft

open Idealize.ShloMosaic Idealize.ShloMosaic.ValueIdx

variable {α : Type}

/-- In column 0 the joined matrix is the column. -/
theorem joined_first {n a b : Nat} (Y : (⟨2, ![n, 1]⟩ : Shape).Idx → α) (X : (⟨2, ![n, a]⟩ : Shape).Idx → α)
    (h : Shape.Concatenates [(⟨2, ![n, 1]⟩ : Shape), (⟨2, ![n, a]⟩ : Shape)] (⟨2, ![n, b]⟩ : Shape) (1 : Fin 2))
    (p : Fin n) (hb : 0 < b) :
    concatenate (⟨2, ![n, b]⟩ : Shape) (1 : Fin 2) [⟨(⟨2, ![n, 1]⟩ : Shape), Y⟩, ⟨(⟨2, ![n, a]⟩ : Shape), X⟩] h
        (ix2 p (⟨0, hb⟩ : Fin b))
      = Y (ix2 p (0 : Fin 1)) :=
  concatenate_pair_apply_left (t := (⟨2, ![n, b]⟩ : Shape)) (s₁ := (⟨2, ![n, 1]⟩ : Shape)) (s₂ := (⟨2, ![n, a]⟩ : Shape))
    (1 : Fin 2) Y X h (ix2 p (⟨0, hb⟩ : Fin b)) rfl (ix2 p (0 : Fin 1))
    (fun d => match d with | ⟨0, _⟩ => rfl | ⟨1, _⟩ => rfl)

/-- Right of column 0 the joined matrix is the matrix, one column to the left. -/
theorem joined_rest {n a b : Nat} (Y : (⟨2, ![n, 1]⟩ : Shape).Idx → α) (X : (⟨2, ![n, a]⟩ : Shape).Idx → α)
    (h : Shape.Concatenates [(⟨2, ![n, 1]⟩ : Shape), (⟨2, ![n, a]⟩ : Shape)] (⟨2, ![n, b]⟩ : Shape) (1 : Fin 2))
    (p : Fin n) (k : Nat) (hk : k < a) (hkb : k + 1 < b) :
    concatenate (⟨2, ![n, b]⟩ : Shape) (1 : Fin 2) [⟨(⟨2, ![n, 1]⟩ : Shape), Y⟩, ⟨(⟨2, ![n, a]⟩ : Shape), X⟩] h
        (ix2 p (⟨k + 1, hkb⟩ : Fin b))
      = X (ix2 p (⟨k, hk⟩ : Fin a)) :=
  concatenate_pair_apply_right (t := (⟨2, ![n, b]⟩ : Shape)) (s₁ := (⟨2, ![n, 1]⟩ : Shape)) (s₂ := (⟨2, ![n, a]⟩ : Shape))
    (1 : Fin 2) Y X h (ix2 p (⟨k + 1, hkb⟩ : Fin b)) rfl rfl (ix2 p (⟨k, hk⟩ : Fin a))
    (fun d hd => match d, hd with
      | ⟨0, _⟩, _ => rfl
      | ⟨1, _⟩, hd => absurd rfl hd)
    (by show k + 1 = k + 1; rfl)

end Cert.ColumnJoinedLeft
-- ==== Proof.KernelFilter.lean ====
/-
  The first half of the kernel body at one entry: the mixing weights pw, the three-tap filters dw, the value rows with
  a zero joined on each side, and the filtered rows before clipping.

  The body's value is opened into three named pieces — the taps (a [512, 3] matrix), the padded rows (a [512, 514]
  matrix) and the filtered rows built from them — and each piece is read at an entry given by its coordinates:
  a cast between [1, 512, 512] and [512, 512] keeps the entry, a one-row matrix broadcast down the rows reads its one
  row, a column cut out of the taps and broadcast along the row reads the tap, a slice of the padded rows starting at
  column o reads column o + c, and the two matrix products are sums over the contracted axis.
-/
import proofs.«151612_j13408887899069_1_alg».proof.Proof.Gen.KernelIdeal.Skeleton
import proofs.«151612_j13408887899069_1_alg».proof.Proof.MatmulAt
import proofs.«151612_j13408887899069_1_alg».proof.Proof.Spec
import proofs.«151612_j13408887899069_1_alg».proof.Proof.LibKeepdims
import proofs.«151612_j13408887899069_1_alg».proof.Proof.LibColumnOps
import proofs.«151612_j13408887899069_1_alg».proof.Proof.LibJoinedColumn
import proofs.«151612_j13408887899069_1_alg».proof.Proof.LibColumnJoinedLeft
import Idealize.ShloMosaic.Lib.ValueLayout
import Idealize.ShloMosaic.Lib.KernelVsHost

noncomputable section

namespace Cert.KernelIdeal.Hand

open Cert.KernelIdeal Cert.KernelIdeal.Gen Idealize.ShloMosaic Idealize.ShloMosaic.ValueIdx

/-- The query block as a matrix: the cast drops the leading unit axis and the change of format keeps every value. -/
theorem pay2_apply (x0 : Vec Ideal S1x512x512 .f32) (n j : Fin 512) :
    k0_pay2 x0 (ix2 n j) = x0 (ix3 (0 : Fin 1) n j) := by
  unfold k0_pay2
  exact shapeCast_1ab_ab_apply x0 shapeCasts_S1x512x512_S512x512 n j

/-- The mixing weights: the query block times the weight block, plus the bias row. -/
theorem pay3_apply (x0 : Vec Ideal S1x512x512 .f32) (x3 : Vec Ideal S512x512 .f32) (x5 : Vec Ideal S1x512 .f32) (n i : Fin 512) :
    k0_pay3 x0 x3 x5 (ix2 n i)
      = Spec.pwAt (fun n j => x0 (ix3 (0 : Fin 1) n j)) (fun j i => x3 (ix2 j i)) (fun i => x5 (ix2 (0 : Fin 1) i)) n i := by
  unfold k0_pay3
  show _ + _ = (∑ j : Fin 512, x0 (ix3 (0 : Fin 1) n j) * x3 (ix2 j i)) + x5 (ix2 (0 : Fin 1) i)
  refine congrArg₂ (· + ·) ?_ ?_
  · refine (matmul_square_apply _ _ n i).trans (Finset.sum_congr rfl fun j _ => ?_)
    show k0_pay2 x0 (ix2 n j) * shapeCast S512x512 x3 shapeCasts_S512x512_S512x512 (ix2 j i) = _
    rw [pay2_apply, shapeCast_self]
  · refine (broadcastTo_1b_ab_apply _ broadcasts_S1x512_S512x512 n i).trans ?_
    rw [shapeCast_self]

/-- The three-tap filters, one row of three per row of the query block. -/
def taps (x0 : Vec Ideal S1x512x512 .f32) (x2 : Vec Ideal S512x3 .f32) (x4 : Vec Ideal S1x3 .f32) : FVec Ideal S512x3 .f32 :=
  addf (matmul dot_S512x512_S512x3_S512x3_1_0_0_1_n_n none (k0_pay2 x0)
      (truncf .bf16 (shapeCast S512x3 x2 shapeCasts_S512x3_S512x3) bitsLt_bf16_f32) (constant S512x3 .f32 0x00000000#32))
    (broadcastTo S512x3 (shapeCast S1x3 x4 shapeCasts_S1x3_S1x3) broadcasts_S1x3_S512x3)

theorem taps_apply (x0 : Vec Ideal S1x512x512 .f32) (x2 : Vec Ideal S512x3 .f32) (x4 : Vec Ideal S1x3 .f32) (n : Fin 512) (k : Fin 3) :
    taps x0 x2 x4 (ix2 n k)
      = Spec.dwAt (fun n j => x0 (ix3 (0 : Fin 1) n j)) (fun j k => x2 (ix2 j k)) (fun k => x4 (ix2 (0 : Fin 1) k)) n k := by
  unfold taps
  show _ + _ = (∑ j : Fin 512, x0 (ix3 (0 : Fin 1) n j) * x2 (ix2 j k)) + x4 (ix2 (0 : Fin 1) k)
  refine congrArg₂ (· + ·) ?_ ?_
  · refine (matmul_narrow_apply _ _ n k).trans (Finset.sum_congr rfl fun j _ => ?_)
    show k0_pay2 x0 (ix2 n j) * shapeCast S512x3 x2 shapeCasts_S512x3_S512x3 (ix2 j k) = _
    rw [pay2_apply, shapeCast_self]
  · refine (broadcastTo_1b_ab_apply _ broadcasts_S1x3_S512x3 n k).trans ?_
    rw [shapeCast_self]

/-- The value block's rows with a zero column joined on the left and another on the right. -/
def padded (x1 : Vec Ideal S1x512x512 .f32) : FVec Ideal S512x514 .f32 :=
  concatenate S512x514 1
    [⟨S512x513, concatenate S512x513 1 [⟨S512x1, broadcast S512x1 (Scalar.sitofp .f32 0#32)⟩,
        ⟨S512x512, shapeCast S512x512 x1 shapeCasts_S1x512x512_S512x512⟩] concatenates_S512x1_S512x512_S512x513_d1⟩,
      ⟨S512x1, broadcast S512x1 (Scalar.sitofp .f32 0#32)⟩] concatenates_S512x513_S512x1_S512x514_d1

theorem padded_apply (x1 : Vec Ideal S1x512x512 .f32) (n : Fin 512) (p : ℕ) (hp : p < 514) :
    padded x1 (ix2 n (⟨p, hp⟩ : Fin 514)) = Spec.tap (fun n c => x1 (ix3 (0 : Fin 1) n c)) n p := by
  unfold padded Spec.tap
  by_cases h513 : p = 513
  · subst h513
    rw [dif_neg (by omega)]
    refine (JoinedColumn.joined_right _ _ concatenates_S512x513_S512x1_S512x514_d1 n (by omega)).trans ?_
    exact sitofp_zero
  · have hlt : p < 513 := by omega
    refine (JoinedColumn.joined_left _ _ concatenates_S512x513_S512x1_S512x514_d1 n p hlt hp).trans ?_
    by_cases h0 : p = 0
    · subst h0
      rw [dif_neg (by omega)]
      refine (ColumnJoinedLeft.joined_first _ _ concatenates_S512x1_S512x512_S512x513_d1 n (by omega)).trans ?_
      exact sitofp_zero
    · obtain ⟨k, rfl⟩ : ∃ k, p = k + 1 := ⟨p - 1, by omega⟩
      rw [dif_pos (by omega)]
      refine (ColumnJoinedLeft.joined_rest _ _ concatenates_S512x1_S512x512_S512x513_d1 n k (by omega) hlt).trans ?_
      exact shapeCast_1ab_ab_apply x1 shapeCasts_S1x512x512_S512x512 n ⟨k, by omega⟩

/-- The filtered rows from the taps and the padded rows: tap k times the padded row shifted by k, added over k. -/
def filtered (d : FVec Ideal S512x3 .f32) (p : FVec Ideal S512x514 .f32) : FVec Ideal S512x512 .f32 :=
  addf (addf
      (mulf (broadcastTo S512x512 (extractStridedSlice S512x1 ![0, 0] d slices_S512x3_o0_0_S512x1) broadcasts_S512x1_S512x512)
        (extractStridedSlice S512x512 ![0, 0] p slices_S512x514_o0_0_S512x512))
      (mulf (broadcastTo S512x512 (extractStridedSlice S512x1 ![0, 1] d slices_S512x3_o0_1_S512x1) broadcasts_S512x1_S512x512)
        (extractStridedSlice S512x512 ![0, 1] p slices_S512x514_o0_1_S512x512)))
    (mulf (broadcastTo S512x512 (extractStridedSlice S512x1 ![0, 2] d slices_S512x3_o0_2_S512x1) broadcasts_S512x1_S512x512)
      (extractStridedSlice S512x512 ![0, 2] p slices_S512x514_o0_2_S512x512))

theorem filtered_apply (d : FVec Ideal S512x3 .f32) (p : FVec Ideal S512x514 .f32) (n c : Fin 512) :
    filtered d p (ix2 n c)
      = d (ix2 n (0 : Fin 3)) * p (ix2 n (⟨c.val, by omega⟩ : Fin 514))
        + d (ix2 n (1 : Fin 3)) * p (ix2 n (⟨c.val + 1, by omega⟩ : Fin 514))
        + d (ix2 n (2 : Fin 3)) * p (ix2 n (⟨c.val + 2, by omega⟩ : Fin 514)) := by
  unfold filtered
  show (_ * _ + _ * _) + _ * _ = _
  refine congrArg₂ (· + ·) (congrArg₂ (· + ·) (congrArg₂ (· * ·) ?_ ?_) (congrArg₂ (· * ·) ?_ ?_)) (congrArg₂ (· * ·) ?_ ?_)
  · exact (LibKeepdims.broadcastTo_a1_ab_apply _ broadcasts_S512x1_S512x512 n c).trans
      (ColumnOps.column_apply 0 (by omega) d slices_S512x3_o0_0_S512x1 n)
  · exact slice2_axis1_apply 0 p slices_S512x514_o0_0_S512x512 n c _ (by show c.val = 0 + c.val; omega)
  · exact (LibKeepdims.broadcastTo_a1_ab_apply _ broadcasts_S512x1_S512x512 n c).trans
      (ColumnOps.column_apply 1 (by omega) d slices_S512x3_o0_1_S512x1 n)
  · exact slice2_axis1_apply 1 p slices_S512x514_o0_1_S512x512 n c _ (by show c.val + 1 = 1 + c.val; omega)
  · exact (LibKeepdims.broadcastTo_a1_ab_apply _ broadcasts_S512x1_S512x512 n c).trans
      (ColumnOps.column_apply 2 (by omega) d slices_S512x3_o0_2_S512x1 n)
  · exact slice2_axis1_apply 2 p slices_S512x514_o0_2_S512x512 n c _ (by show c.val + 2 = 2 + c.val; omega)

/-- The body's filtered rows are the three pieces put together. -/
theorem pay4_eq (x0 x1 : Vec Ideal S1x512x512 .f32) (x2 : Vec Ideal S512x3 .f32) (x4 : Vec Ideal S1x3 .f32) :
    k0_pay4 x0 x1 x2 x4 = filtered (taps x0 x2 x4) (padded x1) := rfl

/-- The filtered rows at one entry: row n's taps against the padded row n at columns c, c + 1, c + 2. -/
theorem pay4_apply (x0 x1 : Vec Ideal S1x512x512 .f32) (x2 : Vec Ideal S512x3 .f32) (x4 : Vec Ideal S1x3 .f32) (n c : Fin 512) :
    k0_pay4 x0 x1 x2 x4 (ix2 n c)
      = Spec.convAt (fun n j => x0 (ix3 (0 : Fin 1) n j)) (fun n c => x1 (ix3 (0 : Fin 1) n c)) (fun j k => x2 (ix2 j k))
          (fun k => x4 (ix2 (0 : Fin 1) k)) n c := by
  rw [pay4_eq, filtered_apply, taps_apply, taps_apply, taps_apply, padded_apply, padded_apply, padded_apply]
  rfl

end Cert.KernelIdeal.Hand

end
-- ==== Proof.KernelNorm.lean ====
/-
  The second half of the kernel body at one entry: the rows mixed by the weights, then each row normalised.

  The body's last value is opened into named pieces — the mixed rows (a matrix product), a row's mean kept as a
  one-column matrix (the row's sum, cast to a column and divided by the constant 512), the rows with their mean taken
  off, and the normalised rows — and each is read at an entry given by its coordinates: the sum along a row is the sum
  of the row's 512 entries, the cast of a vector to a column and the broadcast of a column along the row keep the
  row's entry, and the scale and shift rows are broadcast down the rows.
-/
import proofs.«151612_j13408887899069_1_alg».proof.Proof.Gen.KernelIdeal.Skeleton
import proofs.«151612_j13408887899069_1_alg».proof.Proof.MatmulAt
import proofs.«151612_j13408887899069_1_alg».proof.Proof.Spec
import proofs.«151612_j13408887899069_1_alg».proof.Proof.LibKeepdims
import Idealize.ShloMosaic.Lib.ValueLayout

noncomputable section

namespace Cert.KernelIdeal.Hand

open Cert.KernelIdeal Cert.KernelIdeal.Gen Idealize.ShloMosaic Idealize.ShloMosaic.ValueIdx

/-- The rows of `r` mixed by the weights `a`. -/
def mixed (a r : FVec Ideal S512x512 .f32) : FVec Ideal S512x512 .f32 :=
  matmul dot_S512x512_S512x512_S512x512_1_0_0_1_n_n none (truncf .bf16 a bitsLt_bf16_f32) (truncf .bf16 r bitsLt_bf16_f32)
    (constant S512x512 .f32 0x00000000#32)

theorem mixed_apply (a r : FVec Ideal S512x512 .f32) (m c : Fin 512) :
    mixed a r (ix2 m c) = ∑ n : Fin 512, a (ix2 m n) * r (ix2 n c) :=
  matmul_square_apply _ _ m c

/-- Each row's mean, kept as a one-column matrix. -/
def rowMean (x : FVec Ideal S512x512 .f32) : FVec Ideal S512x1 .f32 :=
  divf (shapeCast S512x1 (multiReduction .add [1] S512 x 0x00000000#32 reduces_S512x512_S512 (.inl rfl) rfl) shapeCasts_S512_S512x1)
    (broadcast S512x1 (Scalar.ofBits .f32 0x44000000#32))

theorem rowMean_apply (x : FVec Ideal S512x512 .f32) (m : Fin 512) :
    rowMean x (ix2 m (0 : Fin 1)) = Ideal.div (∑ c : Fin 512, x (ix2 m c)) Spec.cols := by
  unfold rowMean
  show Ideal.div _ _ = _
  refine congrArg (fun s => Ideal.div s Spec.cols) ?_
  refine (LibKeepdims.shapeCast_a_a1_apply _ shapeCasts_S512_S512x1 m 0).trans ?_
  refine (Ideal.multiReduction_add_single x 0x00000000#32 reduces_S512x512_S512 (.inl rfl) rfl (ix1 m)).trans ?_
  exact Finset.sum_congr rfl fun c _ => congrArg x (funext fun a => Fin.ext (by
    match a with
    | ⟨0, _⟩ => rfl
    | ⟨1, _⟩ => rfl))

/-- The rows with their mean taken off. -/
def centred (x : FVec Ideal S512x512 .f32) : FVec Ideal S512x512 .f32 :=
  subf x (broadcastTo S512x512 (rowMean x) broadcasts_S512x1_S512x512)

theorem centred_apply (x : FVec Ideal S512x512 .f32) (m c : Fin 512) :
    centred x (ix2 m c) = x (ix2 m c) - Ideal.div (∑ c : Fin 512, x (ix2 m c)) Spec.cols := by
  unfold centred
  show _ - _ = _
  refine congrArg (fun s => x (ix2 m c) - s) ?_
  exact (LibKeepdims.broadcastTo_a1_ab_apply _ broadcasts_S512x1_S512x512 m c).trans (rowMean_apply x m)

/-- The normalised rows, scaled by the row `g` and shifted by the row `b`. -/
def normed (x : FVec Ideal S512x512 .f32) (g b : Vec Ideal S1x512 .f32) : FVec Ideal S512x512 .f32 :=
  addf
    (mulf
      (mulf (centred x)
        (broadcastTo S512x512
          (rsqrt (addf (rowMean (mulf (centred x) (centred x))) (broadcast S512x1 (Scalar.ofBits .f32 0x3727C5AC#32))))
          broadcasts_S512x1_S512x512))
      (broadcastTo S512x512 (shapeCast S1x512 g shapeCasts_S1x512_S1x512) broadcasts_S1x512_S512x512))
    (broadcastTo S512x512 (shapeCast S1x512 b shapeCasts_S1x512_S1x512) broadcasts_S1x512_S512x512)

theorem normed_apply (x : FVec Ideal S512x512 .f32) (g b : Vec Ideal S1x512 .f32) (m c : Fin 512) :
    normed x g b (ix2 m c)
      = (x (ix2 m c) - Ideal.div (∑ c : Fin 512, x (ix2 m c)) Spec.cols)
          * Ideal.rsqrt (Ideal.div (∑ c : Fin 512,
              (x (ix2 m c) - Ideal.div (∑ c : Fin 512, x (ix2 m c)) Spec.cols)
                * (x (ix2 m c) - Ideal.div (∑ c : Fin 512, x (ix2 m c)) Spec.cols)) Spec.cols + Spec.eps)
          * g (ix2 (0 : Fin 1) c) + b (ix2 (0 : Fin 1) c) := by
  unfold normed
  show (_ * _) * _ + _ = _
  refine congrArg₂ (· + ·) (congrArg₂ (· * ·) (congrArg₂ (· * ·) (centred_apply x m c) ?_) ?_) ?_
  · refine (LibKeepdims.broadcastTo_a1_ab_apply _ broadcasts_S512x1_S512x512 m c).trans ?_
    show Ideal.rsqrt (_ + _) = _
    refine congrArg (fun s => Ideal.rsqrt (s + Spec.eps)) ?_
    refine (rowMean_apply _ m).trans ?_
    refine congrArg (fun s => Ideal.div s Spec.cols) (Finset.sum_congr rfl fun c' _ => ?_)
    show _ * _ = _
    rw [centred_apply]
  · refine (broadcastTo_1b_ab_apply _ broadcasts_S1x512_S512x512 m c).trans ?_
    rw [shapeCast_self]
  · refine (broadcastTo_1b_ab_apply _ broadcasts_S1x512_S512x512 m c).trans ?_
    rw [shapeCast_self]

/-- The body's last value is those pieces put together: the weights against the clipped filtered rows, normalised. -/
theorem pay1_eq (v20 v39 v40 : FVec Ideal S512x512 .f32) (v63 v67 : Vec Ideal S1x512 .f32) :
    k0_pay1 v20 v39 v40 v63 v67
      = shapeCast S1x512x512 (normed (mixed v20 (maximumf v39 v40)) v63 v67) shapeCasts_S512x512_S1x512x512 := rfl

end Cert.KernelIdeal.Hand

end
-- ==== Proof.KernelPayload.lean ====
/-
  The whole kernel body at one entry of its output block, as the specification of its input blocks.

  The two halves meet: the mixed rows are the weights pw against the filtered rows clipped at zero (the body's zero is
  the zero bit pattern), and the last cast only adds the output block's leading unit axis back.
-/
import proofs.«151612_j13408887899069_1_alg».proof.Proof.KernelFilter
import proofs.«151612_j13408887899069_1_alg».proof.Proof.KernelNorm

noncomputable section

namespace Cert.KernelIdeal.Hand

open Cert.KernelIdeal Cert.KernelIdeal.Gen Idealize.ShloMosaic Idealize.ShloMosaic.ValueIdx

section
variable (x0 x1 : Vec Ideal S1x512x512 .f32) (x2 : Vec Ideal S512x3 .f32) (x3 : Vec Ideal S512x512 .f32)
  (x4 : Vec Ideal S1x3 .f32) (x5 x6 x7 : Vec Ideal S1x512 .f32)

/-- The mixed rows of the body are the specification's. -/
theorem out_apply (m c : Fin 512) :
    mixed (k0_pay3 x0 x3 x5) (maximumf (k0_pay4 x0 x1 x2 x4) k0_pay5) (ix2 m c)
      = Spec.outAt (fun n j => x0 (ix3 (0 : Fin 1) n j)) (fun n c => x1 (ix3 (0 : Fin 1) n c)) (fun j k => x2 (ix2 j k))
          (fun j i => x3 (ix2 j i)) (fun k => x4 (ix2 (0 : Fin 1) k)) (fun i => x5 (ix2 (0 : Fin 1) i)) m c := by
  rw [mixed_apply]
  unfold Spec.outAt Spec.depthAt
  refine Finset.sum_congr rfl fun n _ => ?_
  rw [pay3_apply]
  show _ * max (k0_pay4 x0 x1 x2 x4 (ix2 n c)) (Ideal.ofBits .f32 0x00000000#32) = _
  rw [pay4_apply, Ideal.ofBits_zero_f32]

/-- The body's stored value at entry (u, m, c) of the output block. -/
theorem pay_apply (u : Fin 1) (m c : Fin 512) :
    k0_pay1 (k0_pay3 x0 x3 x5) (k0_pay4 x0 x1 x2 x4) k0_pay5 x6 x7 (ix3 u m c)
      = Spec.lnAt (fun n j => x0 (ix3 (0 : Fin 1) n j)) (fun n c => x1 (ix3 (0 : Fin 1) n c)) (fun j k => x2 (ix2 j k))
          (fun j i => x3 (ix2 j i)) (fun k => x4 (ix2 (0 : Fin 1) k)) (fun i => x5 (ix2 (0 : Fin 1) i))
          (fun c => x6 (ix2 (0 : Fin 1) c)) (fun c => x7 (ix2 (0 : Fin 1) c)) m c := by
  rw [pay1_eq]
  refine (shapeCast_ab_1ab_apply _ shapeCasts_S512x512_S1x512x512 u m c).trans ?_
  rw [normed_apply]
  simp only [out_apply]
  rfl

/-- The same at any index of the output block. -/
theorem pay_at (y : S1x512x512.Idx) :
    k0_pay1 (k0_pay3 x0 x3 x5) (k0_pay4 x0 x1 x2 x4) k0_pay5 x6 x7 y
      = Spec.lnAt (fun n j => x0 (ix3 (0 : Fin 1) n j)) (fun n c => x1 (ix3 (0 : Fin 1) n c)) (fun j k => x2 (ix2 j k))
          (fun j i => x3 (ix2 j i)) (fun k => x4 (ix2 (0 : Fin 1) k)) (fun i => x5 (ix2 (0 : Fin 1) i))
          (fun c => x6 (ix2 (0 : Fin 1) c)) (fun c => x7 (ix2 (0 : Fin 1) c)) (y 1) (y 2) := by
  obtain ⟨u, m, c, rfl⟩ : ∃ (u : Fin 1) (m c : Fin 512), y = ix3 u m c := ⟨y 0, y 1, y 2, eq_ix3 y⟩
  exact pay_apply x0 x1 x2 x3 x4 x5 x6 x7 u m c

end

end Cert.KernelIdeal.Hand

end
-- ==== Proof.KernelBlocks.lean ====
/-
  The kernel's input blocks as entries of the argument arrays.

  At grid point t the query and value windows hold batch entry t (the block index is (t, 0, 0) and the block is one
  whole [512, 512] matrix), and every other window holds its whole array at every point. Those arrays are written by
  the host before the call: the first three columns and the remaining 512 columns of the weight, the first three and
  the remaining 512 entries of the bias laid out as one row, and γ and β laid out as one row.
-/
import proofs.«151612_j13408887899069_1_alg».proof.Proof.Gen.KernelIdeal.Frame
import Idealize.ShloMosaic.Lib.Pipeline.Value
import Idealize.ShloMosaic.Lib.ValueLayout
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

/-! ## The arrays the host writes before the call -/

theorem V_main_v0 (c : Dev nD) : (V m c main_v0 : S512x3.Idx → EReal)
    = extractStridedSlice S512x3 ![0, 0] (m ((c : Thread nD τ).loc main_arg2)) slices_S512x515_S512x3_0_0 := by
  dsimp only [V, hostOps0]; after_results

theorem V_main_v1 (c : Dev nD) : (V m c main_v1 : S512x512.Idx → EReal)
    = extractStridedSlice S512x512 ![0, 3] (m ((c : Thread nD τ).loc main_arg2)) slices_S512x515_S512x512_0_3 := by
  dsimp only [V, hostOps0]; after_results

theorem V_main_v3 (c : Dev nD) : (V m c main_v3 : S1x3.Idx → EReal)
    = shapeCast S1x3 (extractStridedSlice S3 ![0] (m ((c : Thread nD τ).loc main_arg3)) slices_S515_S3_0) shapeCasts_S3_S1x3 := by
  dsimp only [V, hostOps0]; after_results; rfl

theorem V_main_v5 (c : Dev nD) : (V m c main_v5 : S1x512.Idx → EReal)
    = shapeCast S1x512 (extractStridedSlice S512 ![3] (m ((c : Thread nD τ).loc main_arg3)) slices_S515_S512_3) shapeCasts_S512_S1x512 := by
  dsimp only [V, hostOps0]; after_results; rfl

theorem V_main_v6 (c : Dev nD) : (V m c main_v6 : S1x512.Idx → EReal)
    = shapeCast S1x512 (m ((c : Thread nD τ).loc main_arg4)) shapeCasts_S512_S1x512 := by
  dsimp only [V, hostOps0]; after_results; rfl

theorem V_main_v7 (c : Dev nD) : (V m c main_v7 : S1x512.Idx → EReal)
    = shapeCast S1x512 (m ((c : Thread nD τ).loc main_arg5)) shapeCasts_S512_S1x512 := by
  dsimp only [V, hostOps0]; after_results; rfl

/-! ## The printed index maps, decided once over the 128 grid points -/

theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 3) = t.val ∧ win0_8.index t (1 : Fin 3) = 0 ∧ win0_8.index t (2 : Fin 3) = 0) :=
  (by decide +kernel : ∀ t : Fin grid0.N, _)

/-! ## Each input block at a point, entry by entry -/

/-- The query window at point t holds batch entry t of the query array. -/
theorem blk0 (c : Dev nD) (t : Fin cfg0.N) (u : Fin 1) (n j : Fin 512) (b : Fin 128) (hb : b.val = t.val) :
    (iblk m c 0 t : Vec Ideal S1x512x512 .f32) (ix3 u n j)
      = (m ((c : Thread nD τ).loc main_arg0) : S128x512x512.Idx → EReal) (ix3 b n j) := by
  obtain ⟨⟨e0, e1, e2⟩, -⟩ := idx_facts t
  unfold iblk
  rw [View.read_apply]
  show V m c main_arg0 _ = _
  rw [V_main_arg0]
  refine congrArg _ (funext fun a => Fin.ext ?_)
  have hu : u.val = 0 := by omega
  match a with
  | ⟨0, _⟩ => show win0_0.index t (0 : Fin 3) * 1 + 1 * u.val = b.val; rw [e0, hb, hu]; omega
  | ⟨1, _⟩ => show win0_0.index t (1 : Fin 3) * 512 + 1 * n.val = n.val; rw [e1]; omega
  | ⟨2, _⟩ => show win0_0.index t (2 : Fin 3) * 512 + 1 * j.val = j.val; rw [e2]; omega

/-- The value window at point t holds batch entry t of the value array. -/
theorem blk1 (c : Dev nD) (t : Fin cfg0.N) (u : Fin 1) (n j : Fin 512) (b : Fin 128) (hb : b.val = t.val) :
    (iblk m c 1 t : Vec Ideal S1x512x512 .f32) (ix3 u n j)
      = (m ((c : Thread nD τ).loc main_arg1) : S128x512x512.Idx → EReal) (ix3 b n j) := by
  obtain ⟨-, ⟨e0, e1, e2⟩, -⟩ := idx_facts t
  unfold iblk
  rw [View.read_apply]
  show V m c main_arg1 _ = _
  rw [V_main_arg1]
  refine congrArg _ (funext fun a => Fin.ext ?_)
  have hu : u.val = 0 := by omega
  match a with
  | ⟨0, _⟩ => show win0_1.index t (0 : Fin 3) * 1 + 1 * u.val = b.val; rw [e0, hb, hu]; omega
  | ⟨1, _⟩ => show win0_1.index t (1 : Fin 3) * 512 + 1 * n.val = n.val; rw [e1]; omega
  | ⟨2, _⟩ => show win0_1.index t (2 : Fin 3) * 512 + 1 * j.val = j.val; rw [e2]; omega

/-- The filter-weight window holds columns 0, 1, 2 of the weight array. -/
theorem blk2 (c : Dev nD) (t : Fin cfg0.N) (j : Fin 512) (k : Fin 3) :
    (iblk m c 2 t : Vec Ideal S512x3 .f32) (ix2 j k)
      = (m ((c : Thread nD τ).loc main_arg2) : S512x515.Idx → EReal) (ix2 j (⟨k.val, by have := k.isLt; omega⟩ : Fin 515)) := by
  obtain ⟨-, -, ⟨e0, e1⟩, -⟩ := idx_facts t
  unfold iblk
  rw [View.read_apply]
  show V m c main_v0 _ = _
  rw [V_main_v0]
  refine extractStridedSlice_apply _ _ _ _ _ fun a => ?_
  match a with
  | ⟨0, _⟩ => show j.val = 0 + (win0_2.index t (0 : Fin 2) * 512 + 1 * j.val); rw [e0]; omega
  | ⟨1, _⟩ => show k.val = 0 + (win0_2.index t (1 : Fin 2) * 3 + 1 * k.val); rw [e1]; omega

/-- The mixing-weight window holds columns 3 … 514 of the weight array. -/
theorem blk3 (c : Dev nD) (t : Fin cfg0.N) (j i : Fin 512) :
    (iblk m c 3 t : Vec Ideal S512x512 .f32) (ix2 j i)
      = (m ((c : Thread nD τ).loc main_arg2) : S512x515.Idx → EReal) (ix2 j (⟨3 + i.val, by have := i.isLt; omega⟩ : Fin 515)) := by
  obtain ⟨-, -, -, ⟨e0, e1⟩, -⟩ := idx_facts t
  unfold iblk
  rw [View.read_apply]
  show V m c main_v1 _ = _
  rw [V_main_v1]
  refine extractStridedSlice_apply _ _ _ _ _ fun a => ?_
  match a with
  | ⟨0, _⟩ => show j.val = 0 + (win0_3.index t (0 : Fin 2) * 512 + 1 * j.val); rw [e0]; omega
  | ⟨1, _⟩ => show 3 + i.val = 3 + (win0_3.index t (1 : Fin 2) * 512 + 1 * i.val); rw [e1]; omega

/-- The filter-bias window holds entries 0, 1, 2 of the bias array as one row. -/
theorem blk4 (c : Dev nD) (t : Fin cfg0.N) (u : Fin 1) (k : Fin 3) :
    (iblk m c 4 t : Vec Ideal S1x3 .f32) (ix2 u k)
      = (m ((c : Thread nD τ).loc main_arg3) : S515.Idx → EReal) (ix1 (⟨k.val, by have := k.isLt; omega⟩ : Fin 515)) := by
  obtain ⟨-, -, -, -, ⟨e0, e1⟩, -⟩ := idx_facts t
  unfold iblk
  rw [View.read_apply]
  show V m c main_v3 _ = _
  rw [V_main_v3]
  have hu : u.val = 0 := by omega
  have hemb : ((cfg0.win 4).blk t).view.emb (ix2 u k) = ix2 u k := funext fun a => Fin.ext (by
    match a with
    | ⟨0, _⟩ => show win0_4.index t (0 : Fin 2) * 1 + 1 * u.val = u.val; rw [e0]; omega
    | ⟨1, _⟩ => show win0_4.index t (1 : Fin 2) * 3 + 1 * k.val = k.val; rw [e1]; omega)
  rw [hemb]
  refine (shapeCast_a_1a_apply _ shapeCasts_S3_S1x3 u k).trans ?_
  refine extractStridedSlice_apply _ _ _ _ _ fun a => ?_
  match a with
  | ⟨0, _⟩ => show k.val = 0 + k.val; omega

/-- The mixing-bias window holds entries 3 … 514 of the bias array as one row. -/
theorem blk5 (c : Dev nD) (t : Fin cfg0.N) (u : Fin 1) (i : Fin 512) :
    (iblk m c 5 t : Vec Ideal S1x512 .f32) (ix2 u i)
      = (m ((c : Thread nD τ).loc main_arg3) : S515.Idx → EReal) (ix1 (⟨3 + i.val, by have := i.isLt; omega⟩ : Fin 515)) := by
  obtain ⟨-, -, -, -, -, ⟨e0, e1⟩, -⟩ := idx_facts t
  unfold iblk
  rw [View.read_apply]
  show V m c main_v5 _ = _
  rw [V_main_v5]
  have hu : u.val = 0 := by omega
  have hemb : ((cfg0.win 5).blk t).view.emb (ix2 u i) = ix2 u i := funext fun a => Fin.ext (by
    match a with
    | ⟨0, _⟩ => show win0_5.index t (0 : Fin 2) * 1 + 1 * u.val = u.val; rw [e0]; omega
    | ⟨1, _⟩ => show win0_5.index t (1 : Fin 2) * 512 + 1 * i.val = i.val; rw [e1]; omega)
  rw [hemb]
  refine (shapeCast_a_1a_apply _ shapeCasts_S512_S1x512 u i).trans ?_
  refine extractStridedSlice_apply _ _ _ _ _ fun a => ?_
  match a with
  | ⟨0, _⟩ => show 3 + i.val = 3 + i.val; rfl

/-- The scale window holds γ as one row. -/
theorem blk6 (c : Dev nD) (t : Fin cfg0.N) (u : Fin 1) (i : Fin 512) :
    (iblk m c 6 t : Vec Ideal S1x512 .f32) (ix2 u i)
      = (m ((c : Thread nD τ).loc main_arg4) : S512.Idx → EReal) (ix1 i) := by
  obtain ⟨-, -, -, -, -, -, ⟨e0, e1⟩, -⟩ := idx_facts t
  unfold iblk
  rw [View.read_apply]
  show V m c main_v6 _ = _
  rw [V_main_v6]
  have hu : u.val = 0 := by omega
  have hemb : ((cfg0.win 6).blk t).view.emb (ix2 u i) = ix2 u i := funext fun a => Fin.ext (by
    match a with
    | ⟨0, _⟩ => show win0_6.index t (0 : Fin 2) * 1 + 1 * u.val = u.val; rw [e0]; omega
    | ⟨1, _⟩ => show win0_6.index t (1 : Fin 2) * 512 + 1 * i.val = i.val; rw [e1]; omega)
  rw [hemb]
  exact shapeCast_a_1a_apply _ shapeCasts_S512_S1x512 u i

/-- The shift window holds β as one row. -/
theorem blk7 (c : Dev nD) (t : Fin cfg0.N) (u : Fin 1) (i : Fin 512) :
    (iblk m c 7 t : Vec Ideal S1x512 .f32) (ix2 u i)
      = (m ((c : Thread nD τ).loc main_arg5) : S512.Idx → EReal) (ix1 i) := by
  obtain ⟨-, -, -, -, -, -, -, ⟨e0, e1⟩, -⟩ := idx_facts t
  unfold iblk
  rw [View.read_apply]
  show V m c main_v7 _ = _
  rw [V_main_v7]
  have hu : u.val = 0 := by omega
  have hemb : ((cfg0.win 7).blk t).view.emb (ix2 u i) = ix2 u i := funext fun a => Fin.ext (by
    match a with
    | ⟨0, _⟩ => show win0_7.index t (0 : Fin 2) * 1 + 1 * u.val = u.val; rw [e0]; omega
    | ⟨1, _⟩ => show win0_7.index t (1 : Fin 2) * 512 + 1 * i.val = i.val; rw [e1]; omega)
  rw [hemb]
  exact shapeCast_a_1a_apply _ shapeCasts_S512_S1x512 u i

end Cert.KernelIdeal.Hand

end
-- ==== Proof.Result.lean ====
/-
  The result array as one function of the six argument arrays.

  Batch entry b of the result is the specification of batch entry b of the query and value arrays; the linear layer's
  weight [512, 515] gives the three filter columns (columns 0, 1, 2) and the 512 mixing columns (columns 3 … 514),
  its bias [515] likewise; γ and β are the two [512] vectors.
-/
import proofs.«151612_j13408887899069_1_alg».proof.Proof.Spec
import Idealize.ShloMosaic.Lib.ValueIdx

noncomputable section

namespace Cert.Spec

open Idealize.ShloMosaic Idealize.ShloMosaic.ValueIdx

/-- Entry (b, m, c) of the result. -/
def resultAt (Q V : (⟨3, ![128, 512, 512]⟩ : Shape).Idx → EReal) (W : (⟨2, ![512, 515]⟩ : Shape).Idx → EReal)
    (bl : (⟨1, ![515]⟩ : Shape).Idx → EReal) (gam bet : (⟨1, ![512]⟩ : Shape).Idx → EReal)
    (b : Fin 128) (m c : Fin 512) : EReal :=
  lnAt (fun n j => Q (ix3 b n j)) (fun n c => V (ix3 b n c))
    (fun j k => W (ix2 j (⟨k.val, by have := k.isLt; omega⟩ : Fin 515)))
    (fun j i => W (ix2 j (⟨3 + i.val, by have := i.isLt; omega⟩ : Fin 515)))
    (fun k => bl (ix1 (⟨k.val, by have := k.isLt; omega⟩ : Fin 515)))
    (fun i => bl (ix1 (⟨3 + i.val, by have := i.isLt; omega⟩ : Fin 515)))
    (fun c => gam (ix1 c)) (fun c => bet (ix1 c)) m c

/-- The result array. -/
def result (Q V : (⟨3, ![128, 512, 512]⟩ : Shape).Idx → EReal) (W : (⟨2, ![512, 515]⟩ : Shape).Idx → EReal)
    (bl : (⟨1, ![515]⟩ : Shape).Idx → EReal) (gam bet : (⟨1, ![512]⟩ : Shape).Idx → EReal) :
    (⟨3, ![128, 512, 512]⟩ : Shape).Idx → EReal :=
  fun i => resultAt Q V W bl gam bet (i 0) (i 1) (i 2)

theorem result_ix3 (Q V : (⟨3, ![128, 512, 512]⟩ : Shape).Idx → EReal) (W : (⟨2, ![512, 515]⟩ : Shape).Idx → EReal)
    (bl : (⟨1, ![515]⟩ : Shape).Idx → EReal) (gam bet : (⟨1, ![512]⟩ : Shape).Idx → EReal) (b : Fin 128) (m c : Fin 512) :
    result Q V W bl gam bet (ix3 b m c) = resultAt Q V W bl gam bet b m c := rfl

end Cert.Spec

end
-- ==== Proof.KernelValue.lean ====
/-
  The kernel's result array after the run is the specification's result of the argument arrays.

  Grid point t stores the body's value of its input blocks into output block t, which is batch entry t of the result
  array: entry (0, m, c) of the block sits at (t, m, c) of the array. The input blocks are entries of the argument
  arrays, so the stored block is batch entry t of the specification's result; the 128 blocks cover the array (entry
  (b, m, c) lies in block b), so the whole array ends holding the specification's result.
-/
import proofs.«151612_j13408887899069_1_alg».proof.Proof.Gen.KernelIdeal.Value
import proofs.«151612_j13408887899069_1_alg».proof.Proof.KernelPayload
import proofs.«151612_j13408887899069_1_alg».proof.Proof.KernelBlocks
import proofs.«151612_j13408887899069_1_alg».proof.Proof.Result

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The specification's normalised row depends on its eight pieces only through their entries. -/
theorem lnAt_congr {q q' v v' : Fin 512 → Fin 512 → EReal} {wd wd' : Fin 512 → Fin 3 → EReal} {wp wp' : Fin 512 → Fin 512 → EReal}
    {bd bd' : Fin 3 → EReal} {bp bp' gam gam' bet bet' : Fin 512 → EReal}
    (hq : ∀ n j, q n j = q' n j) (hv : ∀ n j, v n j = v' n j) (hwd : ∀ j k, wd j k = wd' j k) (hwp : ∀ j i, wp j i = wp' j i)
    (hbd : ∀ k, bd k = bd' k) (hbp : ∀ i, bp i = bp' i) (hg : ∀ i, gam i = gam' i) (hb : ∀ i, bet i = bet' i) (n c : Fin 512) :
    Spec.lnAt q v wd wp bd bp gam bet n c = Spec.lnAt q' v' wd' wp' bd' bp' gam' bet' n c := by
  obtain rfl : q = q' := funext fun n => funext fun j => hq n j
  obtain rfl : v = v' := funext fun n => funext fun j => hv n j
  obtain rfl : wd = wd' := funext fun n => funext fun j => hwd n j
  obtain rfl : wp = wp' := funext fun n => funext fun j => hwp n j
  obtain rfl : bd = bd' := funext hbd
  obtain rfl : bp = bp' := funext hbp
  obtain rfl : gam = gam' := funext hg
  obtain rfl : bet = bet' := funext hb
  rfl

/-- The specification's result of the argument arrays as launched on core c. -/
abbrev resultOf (c : Dev nD) : S128x512x512.Idx → EReal :=
  Spec.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What point t writes back is block t of the specification's result. -/
theorem flushed_eq (c : Dev nD) (t : Fin cfg0.N) :
    (dats m 0 c).flushed 8 t = ((cfg0.win 8).blk t).view.read (Elt Ideal) (resultOf m c) := by
  rw [Value.flushed8]
  unfold out0_8
  rw [View.canon_unit_zero hz3]
  simp only [View.ld_unit_zero (S := S1x512x512) hz3, View.ld_unit_zero (S := S512x3) hz2, View.ld_unit_zero (S := S512x512) hz2,
    View.ld_unit_zero (S := S1x3) hz2, View.ld_unit_zero (S := S1x512) hz2]
  have ht : t.val < 128 := by have h := t.isLt; have hN : cfg0.N = 128 := N_0; omega
  obtain ⟨-, -, -, -, -, -, -, -, ⟨e0, e1, e2⟩⟩ := idx_facts t
  funext y
  obtain ⟨u, n', c', rfl⟩ : ∃ (u : Fin 1) (n' c' : Fin 512), y = ix3 u n' c' := ⟨y 0, y 1, y 2, eq_ix3 y⟩
  have E : ((cfg0.win 8).blk t).view.emb (ix3 u n' c') = ix3 (⟨t.val, ht⟩ : Fin 128) n' c' := funext fun a => Fin.ext (by
    have hu : u.val = 0 := by omega
    match a with
    | ⟨0, _⟩ => show win0_8.index t (0 : Fin 3) * 1 + 1 * u.val = t.val; rw [e0, hu]; omega
    | ⟨1, _⟩ => show win0_8.index t (1 : Fin 3) * 512 + 1 * n'.val = n'.val; rw [e1]; omega
    | ⟨2, _⟩ => show win0_8.index t (2 : Fin 3) * 512 + 1 * c'.val = c'.val; rw [e2]; omega)
  show k0_pay1 (k0_pay3 (iblk m c 0 t) (iblk m c 3 t) (iblk m c 5 t)) (k0_pay4 (iblk m c 0 t) (iblk m c 1 t) (iblk m c 2 t) (iblk m c 4 t))
      k0_pay5 (iblk m c 6 t) (iblk m c 7 t) (ix3 u n' c')
    = resultOf m c (((cfg0.win 8).blk t).view.emb (ix3 u n' c'))
  rw [E]
  refine (pay_apply (iblk m c 0 t) (iblk m c 1 t) (iblk m c 2 t) (iblk m c 3 t) (iblk m c 4 t) (iblk m c 5 t) (iblk m c 6 t) (iblk m c 7 t) u n' c').trans ?_
  refine Eq.trans ?_ (Spec.result_ix3 _ _ _ _ _ _ (⟨t.val, ht⟩ : Fin 128) n' c').symm
  unfold Spec.resultAt
  exact lnAt_congr (fun n j => blk0 m c t 0 n j ⟨t.val, ht⟩ rfl) (fun n j => blk1 m c t 0 n j ⟨t.val, ht⟩ rfl)
    (fun j k => blk2 m c t j k) (fun j i => blk3 m c t j i) (fun k => blk4 m c t 0 k) (fun i => blk5 m c t 0 i)
    (fun i => blk6 m c t 0 i) (fun i => blk7 m c t 0 i) n' c'

/-- An entry of the result array is in point t's block iff each coordinate is in the block's range on its axis. -/
theorem mem_blk (t : Fin cfg0.N) (i : S128x512x512.Idx) :
    i ∈ ((cfg0.win 8).blk t).view.set
      ↔ ∀ a : Fin 3, win0_8.index t a * S1x512x512.size a ≤ (i a).val ∧ (i a).val < win0_8.index t a * S1x512x512.size a + S1x512x512.size a := by
  show i ∈ ((View.whole main_v8).slice (win0_8.rect t)).set ↔ _
  rw [View.set_slice_whole, Rect.mem_set_unit]
  exact Iff.rfl

/-- Every entry of the result array lies in the block of the grid point named by its batch coordinate. -/
theorem covered (i : S128x512x512.Idx) :
    ∃ t : Fin cfg0.N, (cfg0.win 8).flush t = true ∧ i ∈ ((cfg0.win 8).blk t).view.set := by
  have h0 : (i 0).val < 128 := (i 0).isLt
  have h1 : (i 1).val < 512 := (i 1).isLt
  have h2 : (i 2).val < 512 := (i 2).isLt
  have hN : cfg0.N = 128 := N_0
  obtain ⟨t, ht⟩ : ∃ t : Fin cfg0.N, t.val = (i 0).val := ⟨⟨(i 0).val, by omega⟩, rfl⟩
  obtain ⟨-, -, -, -, -, -, -, -, ⟨e0, e1, e2⟩⟩ := idx_facts t
  refine ⟨t, flush0_8 t, ?_⟩
  rw [mem_blk]
  intro a
  match a with
  | ⟨0, _⟩ =>
    show win0_8.index t (0 : Fin 3) * 1 ≤ (i 0).val ∧ (i 0).val < win0_8.index t (0 : Fin 3) * 1 + 1
    rw [e0]; omega
  | ⟨1, _⟩ =>
    show win0_8.index t (1 : Fin 3) * 512 ≤ (i 1).val ∧ (i 1).val < win0_8.index t (1 : Fin 3) * 512 + 512
    rw [e1]; omega
  | ⟨2, _⟩ =>
    show win0_8.index t (2 : Fin 3) * 512 ≤ (i 2).val ∧ (i 2).val < win0_8.index t (2 : Fin 3) * 512 + 512
    rw [e2]; omega

/-- So the result array ends holding the specification's result. -/
theorem final (c : Dev nD) : (dats m 0 c).arrAt 8 cfg0.N = resultOf m c :=
  (dats m 0 c).arrAt_eq_of_cover 8 (resultOf m c) (fun t _ => flushed_eq m c t) covered

/-- The kernel's run, read: the result array at the specification's result, the arguments unchanged. -/
theorem run : θ_run defs (onTc (τ := τ) (main (F := Ideal))) ⟨m, fun _ => 0, ρ⟩ fun r => ∀ c : Dev nD,
      r.2.mem ((c : Thread nD τ).loc main_v8) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Hand

end
-- ==== Proof.RefValue.lean ====
/-
  The reference program's result, stage by stage, at an entry given by its coordinates, as the specification.

  The reference contracts the query with the WHOLE [512, 515] weight, adds the whole bias, and only then cuts the
  three filter columns and the 512 mixing columns out of the [128, 512, 515] result: entry (b, n, k) of that result
  is Σ_j Q (b, n, j) · W (j, k) + bias k, so column k < 3 is tap k and column 3 + i is mixing weight i. Its padded
  value array is the value array with low and high padding 1 on the last axis, read inside (positions 1 … 512) or
  in the padding (positions 0 and 513, the converted integer zero). The rest follows the specification operation by
  operation; the host's sums start from a zero that adds nothing.
-/
import proofs.«151612_j13408887899069_1_alg».proof.Proof.Gen.ReferenceIdeal.Read
import proofs.«151612_j13408887899069_1_alg».proof.Proof.Result
import Idealize.ShloMosaic.Lib.KernelVsHost

noncomputable section

namespace Cert.ReferenceIdeal.Hand

open Cert.ReferenceIdeal Cert.ReferenceIdeal.Gen Cert.ReferenceIdeal.Read Idealize.ShloMosaic Idealize.ShloMosaic.ValueIdx

local macro "idx3" : term => `(funext fun a => match a with | ⟨0, _⟩ => rfl | ⟨1, _⟩ => rfl | ⟨2, _⟩ => rfl)
local macro "idx2" : term => `(funext fun a => match a with | ⟨0, _⟩ => rfl | ⟨1, _⟩ => rfl)
local macro "idx1" : term => `(funext fun a => match a with | ⟨0, _⟩ => rfl)

variable (Q V : (⟨S128x512x512, .f32⟩ : BufTy).Contents (Elt Ideal)) (W : (⟨S512x515, .f32⟩ : BufTy).Contents (Elt Ideal)) (bl : (⟨S515, .f32⟩ : BufTy).Contents (Elt Ideal)) (gam bet : (⟨S512, .f32⟩ : BufTy).Contents (Elt Ideal))

/-- The contraction with the whole weight plus the whole bias, at (b, n, k). -/
theorem dy_apply (b : Fin 128) (n : Fin 512) (k : Fin 515) :
    val_main_v3 (F := Ideal) Q W bl (ix3 b n k) = (∑ j : Fin 512, Q (ix3 b n j) * W (ix2 j k)) + bl (ix1 k) := by
  rw [val_main_v3_apply, val_main_v0_apply, val_main_v2_apply, val_main_v1_apply]
  have e1 : ∀ j : Fin 512, lidx_main_v0 (ix3 b n k) j = ix3 b n j := fun j => idx3
  have e2 : ∀ j : Fin 512, ridx_main_v0 (ix3 b n k) j = ix2 j k := fun j => idx2
  have e3 : idx_main_v1 (idx_main_v2 (ix3 b n k)) = ix1 k := idx1
  simp only [e1, e2, e3]
  rfl

/-- Tap k of row n: column k of the contraction. -/
theorem dw_apply (b : Fin 128) (n : Fin 512) (k : Fin 3) :
    val_main_v4 (F := Ideal) Q W bl (ix3 b n k) = Spec.dwAt (fun n j => Q (ix3 b n j)) (fun j k => W (ix2 j (⟨k.val, by have := k.isLt; omega⟩ : Fin 515))) (fun k => bl (ix1 (⟨k.val, by have := k.isLt; omega⟩ : Fin 515))) n k := by
  rw [val_main_v4_apply]
  have e : idx_main_v4 (ix3 b n k) = ix3 b n (⟨k.val, by have := k.isLt; omega⟩ : Fin 515) := idx3
  rw [e, dy_apply]
  rfl

/-- Mixing weight i of row n: column 3 + i of the contraction. -/
theorem pw_apply (b : Fin 128) (n i : Fin 512) :
    val_main_v5 (F := Ideal) Q W bl (ix3 b n i) = Spec.pwAt (fun n j => Q (ix3 b n j)) (fun j i => W (ix2 j (⟨3 + i.val, by have := i.isLt; omega⟩ : Fin 515))) (fun i => bl (ix1 (⟨3 + i.val, by have := i.isLt; omega⟩ : Fin 515))) n i := by
  rw [val_main_v5_apply]
  have e : idx_main_v5 (ix3 b n i) = ix3 b n (⟨3 + i.val, by have := i.isLt; omega⟩ : Fin 515) := idx3
  rw [e, dy_apply]
  rfl

/-- The padded value array at position p of row n. -/
theorem padded_apply (b : Fin 128) (n : Fin 512) (p : ℕ) (hp : p < 514) :
    val_main_v6 (F := Ideal) V (ix3 b n (⟨p, hp⟩ : Fin 514)) = Spec.tap (fun n c => V (ix3 b n c)) n p := by
  unfold val_main_v6 Spec.tap
  by_cases h : 1 ≤ p ∧ p ≤ 512
  · rw [dif_pos h]
    refine pad_apply_of_inside _ _ _ V _ pads_S128x512x512_S128x512x514_000_000_110 h_S_ _
      (ix3 b n (⟨p - 1, by omega⟩ : Fin 512)) fun a => ?_
    match a with
    | ⟨0, _⟩ => show b.val = 0 + b.val * (0 + 1); omega
    | ⟨1, _⟩ => show n.val = 0 + n.val * (0 + 1); omega
    | ⟨2, _⟩ => show p = 1 + (p - 1) * (0 + 1); omega
  · rw [dif_neg h]
    refine (pad_apply_of_not_inside _ _ _ V _ pads_S128x512x512_S128x512x514_000_000_110 h_S_ _ (2 : Fin 3) ?_).trans ?_
    · show ¬(1 ≤ p ∧ (p - 1) % (0 + 1) = 0 ∧ (p - 1) / (0 + 1) < 512)
      omega
    · exact sitofp_zero (φ := .f32)

/-- Tap k broadcast along the row. -/
theorem tap0_apply (b : Fin 128) (n c : Fin 512) :
    val_main_v9 (F := Ideal) Q W bl (ix3 b n c) = Spec.dwAt (fun n j => Q (ix3 b n j)) (fun j k => W (ix2 j (⟨k.val, by have := k.isLt; omega⟩ : Fin 515))) (fun k => bl (ix1 (⟨k.val, by have := k.isLt; omega⟩ : Fin 515))) n 0 := by
  rw [val_main_v9_apply, val_main_v7_apply]
  have e : idx_main_v7 (idx_main_v9 (ix3 b n c)) = ix3 b n (0 : Fin 3) := idx3
  rw [e, dw_apply]

theorem tap1_apply (b : Fin 128) (n c : Fin 512) :
    val_main_v13 (F := Ideal) Q W bl (ix3 b n c) = Spec.dwAt (fun n j => Q (ix3 b n j)) (fun j k => W (ix2 j (⟨k.val, by have := k.isLt; omega⟩ : Fin 515))) (fun k => bl (ix1 (⟨k.val, by have := k.isLt; omega⟩ : Fin 515))) n 1 := by
  rw [val_main_v13_apply, val_main_v11_apply]
  have e : idx_main_v11 (idx_main_v13 (ix3 b n c)) = ix3 b n (1 : Fin 3) := idx3
  rw [e, dw_apply]

theorem tap2_apply (b : Fin 128) (n c : Fin 512) :
    val_main_v18 (F := Ideal) Q W bl (ix3 b n c) = Spec.dwAt (fun n j => Q (ix3 b n j)) (fun j k => W (ix2 j (⟨k.val, by have := k.isLt; omega⟩ : Fin 515))) (fun k => bl (ix1 (⟨k.val, by have := k.isLt; omega⟩ : Fin 515))) n 2 := by
  rw [val_main_v18_apply, val_main_v16_apply]
  have e : idx_main_v16 (idx_main_v18 (ix3 b n c)) = ix3 b n (2 : Fin 3) := idx3
  rw [e, dw_apply]

/-- The padded row shifted by 0, 1, 2. -/
theorem shift0_apply (b : Fin 128) (n c : Fin 512) :
    val_main_v8 (F := Ideal) V (ix3 b n c) = Spec.tap (fun n c => V (ix3 b n c)) n c.val := by
  rw [val_main_v8_apply]
  have e : idx_main_v8 (ix3 b n c) = ix3 b n (⟨c.val, by have := c.isLt; omega⟩ : Fin 514) := idx3
  rw [e, padded_apply]

theorem shift1_apply (b : Fin 128) (n c : Fin 512) :
    val_main_v12 (F := Ideal) V (ix3 b n c) = Spec.tap (fun n c => V (ix3 b n c)) n (c.val + 1) := by
  rw [val_main_v12_apply]
  have e : idx_main_v12 (ix3 b n c) = ix3 b n (⟨1 + c.val, by have := c.isLt; omega⟩ : Fin 514) := idx3
  rw [e, padded_apply, Nat.add_comm]

theorem shift2_apply (b : Fin 128) (n c : Fin 512) :
    val_main_v17 (F := Ideal) V (ix3 b n c) = Spec.tap (fun n c => V (ix3 b n c)) n (c.val + 2) := by
  rw [val_main_v17_apply]
  have e : idx_main_v17 (ix3 b n c) = ix3 b n (⟨2 + c.val, by have := c.isLt; omega⟩ : Fin 514) := idx3
  rw [e, padded_apply, Nat.add_comm]

/-- The filtered rows. -/
theorem conv_apply (b : Fin 128) (n c : Fin 512) :
    val_main_v20 (F := Ideal) Q V W bl (ix3 b n c) = Spec.convAt (fun n j => Q (ix3 b n j)) (fun n c => V (ix3 b n c)) (fun j k => W (ix2 j (⟨k.val, by have := k.isLt; omega⟩ : Fin 515))) (fun k => bl (ix1 (⟨k.val, by have := k.isLt; omega⟩ : Fin 515))) n c := by
  rw [val_main_v20_apply, val_main_v15_apply, val_main_v10_apply, val_main_v14_apply, val_main_v19_apply,
    tap0_apply, tap1_apply, tap2_apply, shift0_apply, shift1_apply, shift2_apply]
  rfl

/-- … clipped at zero. -/
theorem depth_apply (b : Fin 128) (n c : Fin 512) :
    val_main_v21 (F := Ideal) Q V W bl (ix3 b n c) = Spec.depthAt (fun n j => Q (ix3 b n j)) (fun n c => V (ix3 b n c)) (fun j k => W (ix2 j (⟨k.val, by have := k.isLt; omega⟩ : Fin 515))) (fun k => bl (ix1 (⟨k.val, by have := k.isLt; omega⟩ : Fin 515))) n c := by
  rw [val_main_v21_apply, conv_apply, val_main_call1_v0_apply, val_main_call1_cst_apply]
  show max _ (Ideal.ofBits .f32 0x00000000#32) = max _ 0
  rw [Ideal.ofBits_zero_f32]

/-- The mixed rows. -/
theorem out_apply (b : Fin 128) (m c : Fin 512) :
    val_main_v22 (F := Ideal) Q V W bl (ix3 b m c) = Spec.outAt (fun n j => Q (ix3 b n j)) (fun n c => V (ix3 b n c)) (fun j k => W (ix2 j (⟨k.val, by have := k.isLt; omega⟩ : Fin 515))) (fun j i => W (ix2 j (⟨3 + i.val, by have := i.isLt; omega⟩ : Fin 515))) (fun k => bl (ix1 (⟨k.val, by have := k.isLt; omega⟩ : Fin 515))) (fun i => bl (ix1 (⟨3 + i.val, by have := i.isLt; omega⟩ : Fin 515))) m c := by
  rw [val_main_v22_apply]
  unfold Spec.outAt
  refine Finset.sum_congr rfl fun n _ => ?_
  have e1 : lidx_main_v22 (ix3 b m c) n = ix3 b m n := idx3
  have e2 : ridx_main_v22 (ix3 b m c) n = ix3 b n c := idx3
  rw [e1, e2, pw_apply, depth_apply]

/-- A row's mean, kept with a trailing unit axis. -/
theorem mu_apply (b : Fin 128) (m : Fin 512) (u : Fin 1) :
    val_main_v26 (F := Ideal) Q V W bl (ix3 b m u) = Spec.muAt (fun n j => Q (ix3 b n j)) (fun n c => V (ix3 b n c)) (fun j k => W (ix2 j (⟨k.val, by have := k.isLt; omega⟩ : Fin 515))) (fun j i => W (ix2 j (⟨3 + i.val, by have := i.isLt; omega⟩ : Fin 515))) (fun k => bl (ix1 (⟨k.val, by have := k.isLt; omega⟩ : Fin 515))) (fun i => bl (ix1 (⟨3 + i.val, by have := i.isLt; omega⟩ : Fin 515))) m := by
  rw [val_main_v26_apply, val_main_v24_apply, val_main_v23_apply, val_main_v25_apply, val_main_cst_apply, val_main_cst_0_apply]
  show Ideal.div (Ideal.ofBits .f32 0x00000000#32 + _) Spec.cols = _
  rw [Ideal.ofBits_zero_f32, zero_add]
  unfold Spec.muAt
  refine congrArg (fun s => Ideal.div s Spec.cols) (Finset.sum_congr rfl fun c _ => ?_)
  have e : idx_main_v23 (idx_main_v24 (ix3 b m u)) c = ix3 b m c := idx3
  rw [e, out_apply]

/-- The rows with their mean taken off (the program computes them twice). -/
theorem centred_apply (b : Fin 128) (m c : Fin 512) :
    val_main_v28 (F := Ideal) Q V W bl (ix3 b m c)
      = Spec.outAt (fun n j => Q (ix3 b n j)) (fun n c => V (ix3 b n c)) (fun j k => W (ix2 j (⟨k.val, by have := k.isLt; omega⟩ : Fin 515))) (fun j i => W (ix2 j (⟨3 + i.val, by have := i.isLt; omega⟩ : Fin 515))) (fun k => bl (ix1 (⟨k.val, by have := k.isLt; omega⟩ : Fin 515))) (fun i => bl (ix1 (⟨3 + i.val, by have := i.isLt; omega⟩ : Fin 515))) m c - Spec.muAt (fun n j => Q (ix3 b n j)) (fun n c => V (ix3 b n c)) (fun j k => W (ix2 j (⟨k.val, by have := k.isLt; omega⟩ : Fin 515))) (fun j i => W (ix2 j (⟨3 + i.val, by have := i.isLt; omega⟩ : Fin 515))) (fun k => bl (ix1 (⟨k.val, by have := k.isLt; omega⟩ : Fin 515))) (fun i => bl (ix1 (⟨3 + i.val, by have := i.isLt; omega⟩ : Fin 515))) m := by
  rw [val_main_v28_apply, val_main_v27_apply]
  have e : idx_main_v27 (ix3 b m c) = ix3 b m (0 : Fin 1) := idx3
  rw [e, out_apply, mu_apply]
  rfl

theorem centred'_apply (b : Fin 128) (m c : Fin 512) :
    val_main_v35 (F := Ideal) Q V W bl (ix3 b m c)
      = Spec.outAt (fun n j => Q (ix3 b n j)) (fun n c => V (ix3 b n c)) (fun j k => W (ix2 j (⟨k.val, by have := k.isLt; omega⟩ : Fin 515))) (fun j i => W (ix2 j (⟨3 + i.val, by have := i.isLt; omega⟩ : Fin 515))) (fun k => bl (ix1 (⟨k.val, by have := k.isLt; omega⟩ : Fin 515))) (fun i => bl (ix1 (⟨3 + i.val, by have := i.isLt; omega⟩ : Fin 515))) m c - Spec.muAt (fun n j => Q (ix3 b n j)) (fun n c => V (ix3 b n c)) (fun j k => W (ix2 j (⟨k.val, by have := k.isLt; omega⟩ : Fin 515))) (fun j i => W (ix2 j (⟨3 + i.val, by have := i.isLt; omega⟩ : Fin 515))) (fun k => bl (ix1 (⟨k.val, by have := k.isLt; omega⟩ : Fin 515))) (fun i => bl (ix1 (⟨3 + i.val, by have := i.isLt; omega⟩ : Fin 515))) m := by
  rw [val_main_v35_apply, val_main_v34_apply]
  have e : idx_main_v34 (ix3 b m c) = ix3 b m (0 : Fin 1) := idx3
  rw [e, out_apply, mu_apply]
  rfl

/-- A row's variance. -/
theorem var_apply (b : Fin 128) (m : Fin 512) (u : Fin 1) :
    val_main_v33 (F := Ideal) Q V W bl (ix3 b m u) = Spec.varAt (fun n j => Q (ix3 b n j)) (fun n c => V (ix3 b n c)) (fun j k => W (ix2 j (⟨k.val, by have := k.isLt; omega⟩ : Fin 515))) (fun j i => W (ix2 j (⟨3 + i.val, by have := i.isLt; omega⟩ : Fin 515))) (fun k => bl (ix1 (⟨k.val, by have := k.isLt; omega⟩ : Fin 515))) (fun i => bl (ix1 (⟨3 + i.val, by have := i.isLt; omega⟩ : Fin 515))) m := by
  rw [val_main_v33_apply, val_main_v31_apply, val_main_v30_apply, val_main_v32_apply, val_main_cst_1_apply, val_main_cst_2_apply]
  show Ideal.div (Ideal.ofBits .f32 0x00000000#32 + _) Spec.cols = _
  rw [Ideal.ofBits_zero_f32, zero_add]
  unfold Spec.varAt
  refine congrArg (fun s => Ideal.div s Spec.cols) (Finset.sum_congr rfl fun c _ => ?_)
  have e : idx_main_v30 (idx_main_v31 (ix3 b m u)) c = ix3 b m c := idx3
  rw [e, val_main_v29_apply, centred_apply]
  rfl

/-- The whole result at (b, m, c). -/
theorem result_apply (b : Fin 128) (m c : Fin 512) :
    val_main_v46 (F := Ideal) Q V W bl gam bet (ix3 b m c) = Spec.resultAt Q V W bl gam bet b m c := by
  rw [val_main_v46_apply, val_main_v43_apply, val_main_v40_apply, val_main_v39_apply, val_main_v38_apply, val_main_v37_apply,
    val_main_v36_apply, val_main_cst_3_apply, val_main_v42_apply, val_main_v41_apply, val_main_v45_apply, val_main_v44_apply]
  have e1 : idx_main_v39 (ix3 b m c) = ix3 b m (0 : Fin 1) := idx3
  have e2 : idx_main_v41 (idx_main_v42 (ix3 b m c)) = ix1 c := idx1
  have e3 : idx_main_v44 (idx_main_v45 (ix3 b m c)) = ix1 c := idx1
  rw [e1, e2, e3, centred'_apply, var_apply]
  rfl

/-- The reference's result array is the specification's. -/
theorem result_eq : val_main_v46 (F := Ideal) Q V W bl gam bet = Spec.result Q V W bl gam bet := by
  funext i
  obtain ⟨b, m, c, rfl⟩ : ∃ (b : Fin 128) (m c : Fin 512), i = ix3 b m c := ⟨i 0, i 1, i 2, eq_ix3 i⟩
  exact result_apply Q V W bl gam bet b m c

end Cert.ReferenceIdeal.Hand

end
-- ==== Proof.lean ====
/-
  A per-batch dynamic convolution with layer normalisation, as a kernel gridded over the batch, against its plain
  array-program reference: the two programs compute the same array over the extended reals.

  For each batch entry both programs form, from the query matrix q and the value matrix v, the three filter taps
  dw = q · W[:, 0:3] + b[0:3] and the mixing weights pw = q · W[:, 3:515] + b[3:515] per row, filter each row of v
  (padded with one zero on each side) along its columns with that row's taps, clip at zero, mix the rows by pw, and
  normalise every row (mean and variance over the 512 columns, ε inside the reciprocal square root, then γ and β).
  The kernel cuts W and b into their two parts before the call and contracts with each part; the reference contracts
  with the whole W, adds the whole b and cuts afterwards. Entry by entry these are the same sums — a cut of a
  contraction along an axis that is not contracted is the contraction with the cut — so no law of arithmetic beyond
  reading both sides at an index is needed, and finiteness of the inputs is never used: the changes of float format
  are the identity over the extended reals, the kernel's matrix products accumulate into zero, the host's sums start
  from zero, the padding value is the converted integer zero on both sides, and the literals 512 and ε are the same
  bit patterns on both sides.

  Both sides are brought to one function of the six argument arrays (Spec.result): the kernel's result array through
  what each grid point stores into its block (KernelValue), the reference's through its operations read one at a time
  at an index (RefValue). The three frames are the generated runs; the idealisation rewrote nothing, so its
  soundness statement is trivial.
-/
import proofs.«151612_j13408887899069_1_alg».proof.Defs
import proofs.«151612_j13408887899069_1_alg».proof.Proof.Gen.Kernel
import proofs.«151612_j13408887899069_1_alg».proof.Proof.Gen.Kernel.Skeleton
import proofs.«151612_j13408887899069_1_alg».proof.Proof.Gen.Kernel.Launch
import proofs.«151612_j13408887899069_1_alg».proof.Proof.Gen.Kernel.Points
import proofs.«151612_j13408887899069_1_alg».proof.Proof.Gen.Kernel.Frame
import proofs.«151612_j13408887899069_1_alg».proof.Proof.Gen.KernelIdeal
import proofs.«151612_j13408887899069_1_alg».proof.Proof.Gen.KernelIdeal.Skeleton
import proofs.«151612_j13408887899069_1_alg».proof.Proof.Gen.KernelIdeal.Launch
import proofs.«151612_j13408887899069_1_alg».proof.Proof.Gen.KernelIdeal.Points
import proofs.«151612_j13408887899069_1_alg».proof.Proof.Gen.KernelIdeal.Frame
import proofs.«151612_j13408887899069_1_alg».proof.Proof.Gen.KernelIdeal.Value
import proofs.«151612_j13408887899069_1_alg».proof.Proof.Gen.ReferenceIdeal
import proofs.«151612_j13408887899069_1_alg».proof.Proof.Gen.ReferenceIdeal.Run
import proofs.«151612_j13408887899069_1_alg».proof.Proof.Gen.ReferenceIdeal.Read
import proofs.«151612_j13408887899069_1_alg».proof.Proof.Gen.Pre_finite_inputs
import proofs.«151612_j13408887899069_1_alg».proof.Proof.KernelValue
import proofs.«151612_j13408887899069_1_alg».proof.Proof.RefValue
import Idealize.ShloMosaic.Adequacy
import Idealize.ShloMosaic.Init

noncomputable section

namespace Cert.Proof

open Idealize.ShloMosaic Idealize.SL.Sem

/-- The kernel at the word level runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with its result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories that agree on the arguments, the kernel's result array and the reference's both end at the one
    function of the arguments. -/
theorem algebraic : Cert.algebraic_KernelIdeal_ReferenceIdeal := by
  intro m ρ m' ρ' _ hagree
  refine ⟨fun c => Cert.KernelIdeal.Hand.resultOf m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.ReferenceIdeal.Hand.result_eq]
  obtain ⟨h0, h1, h2, h3, h4, h5⟩ := hagree c
  rw [h0, h1, h2, h3, h4, h5]
  all_goals rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
